-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  main_v18

def fn {F : FTy → Type} [FloatOps F] (main_arg0 : FVec F S8192x512 .f32) (main_arg1 : FVec F S8192x512 .f32) (main_arg2 : FVec F S8192x512 .f32) (main_arg3 : FVec F S8192x8192 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_v13 main_v16
-- ==== Kernel.lean ====
abbrev S8192x512 : Shape := ⟨2, ![8192, 512]⟩
abbrev S8192x8192 : Shape := ⟨2, ![8192, 8192]⟩
abbrev S8192x1 : Shape := ⟨2, ![8192, 1]⟩
abbrev S1024x512 : Shape := ⟨2, ![1024, 512]⟩
abbrev S1024x1 : Shape := ⟨2, ![1024, 1]⟩
abbrev S1024 : Shape := ⟨1, ![1024]⟩
abbrev S1024x1024 : Shape := ⟨2, ![1024, 1024]⟩
abbrev S512x1024 : Shape := ⟨2, ![512, 1024]⟩
abbrev S_ : Shape := ⟨0, ![]⟩

abbrev nBuf : Space → Nat
  | .hbm => 12
  | .vmem => 23
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x8192, .f32⟩
  | .hbm, ⟨4, _⟩ => ⟨S8192x512, .bf16⟩
  | .hbm, ⟨5, _⟩ => ⟨S8192x512, .bf16⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x1, .f32⟩
  | .local _ .vmem, ⟨11, _⟩ => ⟨S1024x1, .f32⟩
  | .local _ .vmem, ⟨12, _⟩ => ⟨S1024x512, .bf16⟩
  | .local _ .vmem, ⟨13, _⟩ => ⟨S1024x512, .bf16⟩
  | .local _ .vmem, ⟨14, _⟩ => ⟨S8192x512, .bf16⟩
  | .local _ .vmem, ⟨15, _⟩ => ⟨S1024x1, .f32⟩
  | .local _ .vmem, ⟨16, _⟩ => ⟨S1024x1, .f32⟩
  | .local _ .vmem, ⟨17, _⟩ => ⟨S1024x1024, .f32⟩
  | .local _ .vmem, ⟨18, _⟩ => ⟨S1024x1024, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc1_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v5 : BitVec 32 := Scalar.muli arg1 c1024_i32
  v5
def k1_off1 (i : grid1.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_15 : BitVec 32 := 0#32
  let v31 : BitVec 1 := Scalar.cmpi .ne v30 c0_i32_15
  v31

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x512_S1024x512 : S1024x512.ShapeCasts S1024x512
  transposes_S1024x512_p1_0_S512x1024 : S1024x512.Transposes [1, 0] S512x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  reducesTo_S8192x1_S_d0_1 : S8192x1.ReducesTo [0, 1] S_
  h_S_ : 0 < S_.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .bf16 = 32 ∨ (Rect.block (s := S8192x512) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x512.size a
  hwx0_4 : ∀ i : grid0.Coords, EltTy.bits .bf16 = 32 ∨ (Rect.block (s := S8192x512) S1024x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hrank1 : 0 < grid1.rank
  k1_mult1_dvd : ∀ i : grid1.Coords, 16 ∣ (k1_mult1 i).toNat
  k1_off1_inb : ∀ i : grid1.Coords, ∀ a, (k1_off1 i) a + S1024x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .bf16 = 32 ∨ (Rect.block (s := S8192x512) S1024x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .bf16 = 32 ∨ (Rect.block (s := S8192x512) S8192x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .f32 = 32 ∨ (Rect.block (s := S8192x8192) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0_0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 56
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x8192, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x512, .f32⟩
  | .hbm, ⟨23, _⟩ => ⟨S8192x512, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x512, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S_S8192x8192 : S_.BroadcastsInDim S8192x8192 (![] : Fin 0 → Fin S8192x8192.rank)
  reducesTo_S8192x8192_S8192_d1 : S8192x8192.ReducesTo [1] S8192
  reducesTo_S8192x1_S_d0_1 : S8192x1.ReducesTo [0, 1] S_
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.K.FrameR0.lean ====
/-
  The first pallas_call (the row normalisation) as a pipeline region, at any float instance: what the body leaves in
  each output window's staging buffer as a function of the three input blocks, the body's triple, the proof data over
  the buffer contents `V` the region is entered with, and the body obligation at every grid point.
  Every point fetches the three input blocks whole, stores each output block whole, and keeps nothing between points.
-/
import proofs.«158616_j61976378081883_2_alg».proof.Proof.Gen.Kernel.Launch
import proofs.«158616_j61976378081883_2_alg».proof.Proof.Gen.Kernel.Skeleton
import proofs.«158616_j61976378081883_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of a [1024, 512] buffer and of a [1024, 1] buffer: every access of the body is one of them. -/
abbrev rW : Rect S1024x512 := Rect.unit (s := S1024x512) ![0, 0] S1024x512.size inb_S1024x512_S1024x512_0_0
abbrev rC : Rect S1024x1 := Rect.unit (s := S1024x1) ![0, 0] S1024x1.size inb_S1024x1_S1024x1_0_0

/-- What the body leaves in each output window's staging buffer: its one whole-block store, over the input blocks. -/
def out0_3 (x0 : Vec F S1024x512 .f32) : Vec F S1024x512 .bf16 :=
  View.canon [⟨rW, k0_pay1 (View.ld x0 rW)⟩]
def out0_4 (x1 : Vec F S1024x512 .f32) : Vec F S1024x512 .bf16 :=
  View.canon [⟨rW, k0_pay2 (View.ld x1 rW)⟩]
def out0_5 (x0 x2 : Vec F S1024x512 .f32) : Vec F S1024x1 .f32 :=
  View.canon [⟨rC, k0_pay3 (View.ld x0 rW) (View.ld x2 rW)⟩]

theorem coverW (p0 : Vec F S1024x512 .bf16) (y : S1024x512.Idx) :
    ∃ pc ∈ ([⟨rW, p0⟩] : List (View.Piece (Elt F) S1024x512 .bf16)), y ∈ pc.1.set :=
  View.cover_of_tiled [⟨rW, p0⟩] S1024x512.size (by rfl) y
theorem coverC (p0 : Vec F S1024x1 .f32) (y : S1024x1.Idx) :
    ∃ pc ∈ ([⟨rC, p0⟩] : List (View.Piece (Elt F) S1024x1 .f32)), y ∈ pc.1.set :=
  View.cover_of_tiled [⟨rC, p0⟩] S1024x1.size (by rfl) y

set_option maxHeartbeats 2000000 in
/-- The body on whole staging memrefs, the inputs' at contents `x0 x1 x2` and the outputs' at anything, runs to the
    continuation with the inputs as they were and each output at its function of the inputs. -/
theorem sound_kernel0 (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x512 .f32) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x1 .f32) (harg6 : arg6.IsWhole)
    (x0 x1 x2 : Vec F S1024x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0) ∗ owns (c : Thread nD τ) arg5 fullShare (out0_4 x1)
            ∗ owns (c : Thread nD τ) arg6 fullShare (out0_5 x0 x2)) -∗ K ⟨⟩))
      ⊢ wp frame (wpE (defs₀ (F := F)) Variants.none c none) E (cc0__prep_kernel i arg1 harg1 arg2 harg2 arg3 harg3 arg4 harg4 arg5 harg5 arg6 harg6) K := by
  simp only [cc0__prep_kernel_eq_skeleton]; unfold cc0__prep_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverW _)
  isplitl [H4]
  · iexists _; isplitr
    swap; · iexact H4
    ipureintro
    exact View.read_writes_eq_canon _ _ _ (coverW _)
  iexists _; isplitr
  swap; · iexact H5
  ipureintro
  exact View.read_writes_eq_canon _ _ _ (coverC _)

/-- The proof data of the first pipeline on core `c`: the arrays as the region finds them; after the body at point
    `t` each input's buffer at its block and each output's at its function of the input blocks; the scoped rest and
    the generator register pass through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t)
    | ⟨4, _⟩ => out0_4 (iblk0 V c 1 t)
    | ⟨5, _⟩ => out0_5 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) := by dsimp only [dat0]
theorem after0_4 (c : Dev nD) (t : Fin cfg0.N) : (dat0 V c).after 4 t = out0_4 (iblk0 V c 1 t) := by dsimp only [dat0]
theorem after0_5 (c : Dev nD) (t : Fin cfg0.N) : (dat0 V c).after 5 t = out0_5 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.FrameR1Defs.lean ====
/-
  The second pallas_call (the tiled exp-sum reduction) as a pipeline region: what its three control cases share.
  The grid is 8 × 8, the column-tile coordinate innermost; a point's position is `t = 8·i + j`.  The body seeds its two
  accumulators from the seed block when `j = 0`, adds one column tile's row sums to them at every point, and stores the
  row losses into the output block when `j = 7`.  So there are three cases: `j = 0`, `0 < j < 7`, `j = 7`; the output
  window is idle (and not written back) in the first two, and the two accumulators are carried from point to point.
-/
import proofs.«158616_j61976378081883_2_alg».proof.Proof.Gen.Kernel.Launch
import proofs.«158616_j61976378081883_2_alg».proof.Proof.Gen.Kernel.Skeleton
import proofs.«158616_j61976378081883_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- The first branch is taken exactly at the first column tile of a row tile. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second branch is taken exactly at the last column tile of a row tile. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle -/

theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the pipeline calls the body with -/

abbrev VO1_4 : View sig .tc .vmem S1024x1 .f32 := (Memref.whole cc1_stg4_0 : Memref sig .tc .vmem S1024x1 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
/-- The two accumulators: whole scoped buffers of the kernel's own. -/
abbrev scM1_0 : Memref sig .tc .vmem S1024x1 .f32 := Memref.whole cc1_scratch0
abbrev scM1_1 : Memref sig .tc .vmem S1024x1 .f32 := Memref.whole cc1_scratch1
abbrev VS1_0 : View sig .tc .vmem S1024x1 .f32 := scM1_0.view
abbrev VS1_1 : View sig .tc .vmem S1024x1 .f32 := scM1_1.view

end Cert.Kernel.Fr

end
-- ==== Proof.K.FrameR1RunA.lean ====
/-
  The whole-body run of the second kernel in one control case: on whole staging memrefs holding the input blocks,
  the body runs to its end leaving the inputs as they were and each buffer it stores into with its stores written;
  which stores those are is found by running the body.
-/
import proofs.«158616_j61976378081883_2_alg».proof.Proof.K.FrameR1Defs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords)
    (arg2 : Memref sig .tc .vmem S1024x512 .bf16) (harg2 : arg2.IsWhole) (arg3 : Memref sig .tc .vmem S8192x512 .bf16) (harg3 : arg3.IsWhole)
    (arg4 : Memref sig .tc .vmem S1024x1 .f32) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (hc0 : cond1_0 i) (hc1 : ¬cond1_1 i)
    (x0 : Vec F S1024x512 .bf16) (x1 : Vec F S8192x512 .bf16) (x2 : Vec F S1024x1 .f32) (x3 : Vec F S1024x1024 .f32) :
    Σ' (L4 : List (View.Piece (Elt F) S1024x1 .f32)) (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨[], ?_, ?_, fun xi4 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Fr

end
-- ==== Proof.K.FrameR1RunB.lean ====
/-
  The whole-body run of the second kernel in one control case: on whole staging memrefs holding the input blocks,
  the body runs to its end leaving the inputs as they were and each buffer it stores into with its stores written;
  which stores those are is found by running the body.
-/
import proofs.«158616_j61976378081883_2_alg».proof.Proof.K.FrameR1Defs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords)
    (arg2 : Memref sig .tc .vmem S1024x512 .bf16) (harg2 : arg2.IsWhole) (arg3 : Memref sig .tc .vmem S8192x512 .bf16) (harg3 : arg3.IsWhole)
    (arg4 : Memref sig .tc .vmem S1024x1 .f32) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (hc0 : ¬cond1_0 i) (hc1 : ¬cond1_1 i)
    (x0 : Vec F S1024x512 .bf16) (x1 : Vec F S8192x512 .bf16) (x2 : Vec F S1024x1 .f32) (x3 : Vec F S1024x1024 .f32) (xs0 xs1 : Vec F S1024x1 .f32) :
    Σ' (L4 : List (View.Piece (Elt F) S1024x1 .f32)) (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨[], ?_, ?_, fun xi4 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Fr

end
-- ==== Proof.K.FrameR1RunC.lean ====
/-
  The whole-body run of the second kernel in one control case: on whole staging memrefs holding the input blocks,
  the body runs to its end leaving the inputs as they were and each buffer it stores into with its stores written;
  which stores those are is found by running the body.
-/
import proofs.«158616_j61976378081883_2_alg».proof.Proof.K.FrameR1Defs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords)
    (arg2 : Memref sig .tc .vmem S1024x512 .bf16) (harg2 : arg2.IsWhole) (arg3 : Memref sig .tc .vmem S8192x512 .bf16) (harg3 : arg3.IsWhole)
    (arg4 : Memref sig .tc .vmem S1024x1 .f32) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (hc0 : ¬cond1_0 i) (hc1 : cond1_1 i)
    (x0 : Vec F S1024x512 .bf16) (x1 : Vec F S8192x512 .bf16) (x2 : Vec F S1024x1 .f32) (x3 : Vec F S1024x1024 .f32) (xs0 xs1 : Vec F S1024x1 .f32) :
    Σ' (L4 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨?_, ?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.Kernel.Fr

end
-- ==== Proof.K.FrameR1.lean ====
/-
  The second pallas_call as a pipeline region: what the output block and the two accumulators hold after each grid
  point, by recursion on the point's position (the case the position selects, run at the point's memrefs and input
  blocks, the accumulators taken from the point before); the region's invariant, which carries the two accumulators at
  those contents from one point to the next; the proof data; and the body obligation at every point.
-/
import proofs.«158616_j61976378081883_2_alg».proof.Proof.K.FrameR1RunA
import proofs.«158616_j61976378081883_2_alg».proof.Proof.K.FrameR1RunB
import proofs.«158616_j61976378081883_2_alg».proof.Proof.K.FrameR1RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a grid point -/

def runA (c : Dev nD) (t : Fin cfg1.N) (h0 : t.val % 8 = 0) (h1 : ¬t.val % 8 = 7) (x0 : Vec F S1024x512 .bf16) (x1 : Vec F S8192x512 .bf16) (x2 : Vec F S1024x1 .f32) (x3 : Vec F S1024x1024 .f32) :=
  kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) x0 x1 x2 x3
def runB (c : Dev nD) (t : Fin cfg1.N) (h0 : ¬t.val % 8 = 0) (h1 : ¬t.val % 8 = 7) (x0 : Vec F S1024x512 .bf16) (x1 : Vec F S8192x512 .bf16) (x2 : Vec F S1024x1 .f32) (x3 : Vec F S1024x1024 .f32) (xs0 xs1 : Vec F S1024x1 .f32) :=
  kernelRun1_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) x0 x1 x2 x3 xs0 xs1
def runC (c : Dev nD) (t : Fin cfg1.N) (h0 : ¬t.val % 8 = 0) (h1 : t.val % 8 = 7) (x0 : Vec F S1024x512 .bf16) (x1 : Vec F S8192x512 .bf16) (x2 : Vec F S1024x1 .f32) (x3 : Vec F S1024x1024 .f32) (xs0 xs1 : Vec F S1024x1 .f32) :=
  kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) x0 x1 x2 x3 xs0 xs1

theorem scoverA_0 (c : Dev nD) (t : Fin cfg1.N) (h0 : t.val % 8 = 0) (h1 : ¬t.val % 8 = 7) (x0 : Vec F S1024x512 .bf16) (x1 : Vec F S8192x512 .bf16) (x2 : Vec F S1024x1 .f32) (x3 : Vec F S1024x1024 .f32) (y : S1024x1.Idx) :
    ∃ pc ∈ (runA c t h0 h1 x0 x1 x2 x3).2.1, y ∈ pc.1.set :=
  View.cover_of_tiledL (runA c t h0 h1 x0 x1 x2 x3).2.1 S1024x1.size (by sl_kernel_rfl) y
theorem scoverA_1 (c : Dev nD) (t : Fin cfg1.N) (h0 : t.val % 8 = 0) (h1 : ¬t.val % 8 = 7) (x0 : Vec F S1024x512 .bf16) (x1 : Vec F S8192x512 .bf16) (x2 : Vec F S1024x1 .f32) (x3 : Vec F S1024x1024 .f32) (y : S1024x1.Idx) :
    ∃ pc ∈ (runA c t h0 h1 x0 x1 x2 x3).2.2.1, y ∈ pc.1.set :=
  View.cover_of_tiledL (runA c t h0 h1 x0 x1 x2 x3).2.2.1 S1024x1.size (by sl_kernel_rfl) y
theorem scoverB_0 (c : Dev nD) (t : Fin cfg1.N) (h0 : ¬t.val % 8 = 0) (h1 : ¬t.val % 8 = 7) (x0 : Vec F S1024x512 .bf16) (x1 : Vec F S8192x512 .bf16) (x2 : Vec F S1024x1 .f32) (x3 : Vec F S1024x1024 .f32) (xs0 xs1 : Vec F S1024x1 .f32) (y : S1024x1.Idx) :
    ∃ pc ∈ (runB c t h0 h1 x0 x1 x2 x3 xs0 xs1).2.1, y ∈ pc.1.set :=
  View.cover_of_tiledL (runB c t h0 h1 x0 x1 x2 x3 xs0 xs1).2.1 S1024x1.size (by sl_kernel_rfl) y
theorem scoverB_1 (c : Dev nD) (t : Fin cfg1.N) (h0 : ¬t.val % 8 = 0) (h1 : ¬t.val % 8 = 7) (x0 : Vec F S1024x512 .bf16) (x1 : Vec F S8192x512 .bf16) (x2 : Vec F S1024x1 .f32) (x3 : Vec F S1024x1024 .f32) (xs0 xs1 : Vec F S1024x1 .f32) (y : S1024x1.Idx) :
    ∃ pc ∈ (runB c t h0 h1 x0 x1 x2 x3 xs0 xs1).2.2.1, y ∈ pc.1.set :=
  View.cover_of_tiledL (runB c t h0 h1 x0 x1 x2 x3 xs0 xs1).2.2.1 S1024x1.size (by sl_kernel_rfl) y
theorem scoverC_0 (c : Dev nD) (t : Fin cfg1.N) (h0 : ¬t.val % 8 = 0) (h1 : t.val % 8 = 7) (x0 : Vec F S1024x512 .bf16) (x1 : Vec F S8192x512 .bf16) (x2 : Vec F S1024x1 .f32) (x3 : Vec F S1024x1024 .f32) (xs0 xs1 : Vec F S1024x1 .f32) (y : S1024x1.Idx) :
    ∃ pc ∈ (runC c t h0 h1 x0 x1 x2 x3 xs0 xs1).2.1, y ∈ pc.1.set :=
  View.cover_of_tiledL (runC c t h0 h1 x0 x1 x2 x3 xs0 xs1).2.1 S1024x1.size (by sl_kernel_rfl) y
theorem scoverC_1 (c : Dev nD) (t : Fin cfg1.N) (h0 : ¬t.val % 8 = 0) (h1 : t.val % 8 = 7) (x0 : Vec F S1024x512 .bf16) (x1 : Vec F S8192x512 .bf16) (x2 : Vec F S1024x1 .f32) (x3 : Vec F S1024x1024 .f32) (xs0 xs1 : Vec F S1024x1 .f32) (y : S1024x1.Idx) :
    ∃ pc ∈ (runC c t h0 h1 x0 x1 x2 x3 xs0 xs1).2.2.1, y ∈ pc.1.set :=
  View.cover_of_tiledL (runC c t h0 h1 x0 x1 x2 x3 xs0 xs1).2.2.1 S1024x1.size (by sl_kernel_rfl) y
theorem coverC_4 (c : Dev nD) (t : Fin cfg1.N) (h0 : ¬t.val % 8 = 0) (h1 : t.val % 8 = 7) (x0 : Vec F S1024x512 .bf16) (x1 : Vec F S8192x512 .bf16) (x2 : Vec F S1024x1 .f32) (x3 : Vec F S1024x1024 .f32) (xs0 xs1 : Vec F S1024x1 .f32) (y : S1024x1.Idx) :
    ∃ pc ∈ (runC c t h0 h1 x0 x1 x2 x3 xs0 xs1).1, y ∈ pc.1.set :=
  View.cover_of_tiledL (runC c t h0 h1 x0 x1 x2 x3 xs0 xs1).1 S1024x1.size (by sl_kernel_rfl) y

/-- What a case leaves in the output block (a placeholder where the case stores nothing into it) and in the two
    accumulators: its stores read back. -/
def caseA (c : Dev nD) (t : Fin cfg1.N) (h0 : t.val % 8 = 0) (h1 : ¬t.val % 8 = 7) :
    Vec F S1024x1 .f32 × Vec F S1024x1 .f32 × Vec F S1024x1 .f32 :=
  (VO1_4.read (Elt F) (VO1_4.writes (Elt F) VO1_4.junk (runA c t h0 h1 (iblk1 V c 0 t) (iblk1 V c 1 t) (iblk1 V c 2 t) (iblk1 V c 3 t)).1),
   VS1_0.read (Elt F) (VS1_0.writes (Elt F) VS1_0.junk (runA c t h0 h1 (iblk1 V c 0 t) (iblk1 V c 1 t) (iblk1 V c 2 t) (iblk1 V c 3 t)).2.1),
   VS1_1.read (Elt F) (VS1_1.writes (Elt F) VS1_1.junk (runA c t h0 h1 (iblk1 V c 0 t) (iblk1 V c 1 t) (iblk1 V c 2 t) (iblk1 V c 3 t)).2.2.1))
def caseB (c : Dev nD) (t : Fin cfg1.N) (h0 : ¬t.val % 8 = 0) (h1 : ¬t.val % 8 = 7) (xs0 xs1 : Vec F S1024x1 .f32) :
    Vec F S1024x1 .f32 × Vec F S1024x1 .f32 × Vec F S1024x1 .f32 :=
  (VO1_4.read (Elt F) (VO1_4.writes (Elt F) VO1_4.junk (runB c t h0 h1 (iblk1 V c 0 t) (iblk1 V c 1 t) (iblk1 V c 2 t) (iblk1 V c 3 t) xs0 xs1).1),
   VS1_0.read (Elt F) (VS1_0.writes (Elt F) VS1_0.junk (runB c t h0 h1 (iblk1 V c 0 t) (iblk1 V c 1 t) (iblk1 V c 2 t) (iblk1 V c 3 t) xs0 xs1).2.1),
   VS1_1.read (Elt F) (VS1_1.writes (Elt F) VS1_1.junk (runB c t h0 h1 (iblk1 V c 0 t) (iblk1 V c 1 t) (iblk1 V c 2 t) (iblk1 V c 3 t) xs0 xs1).2.2.1))
def caseC (c : Dev nD) (t : Fin cfg1.N) (h0 : ¬t.val % 8 = 0) (h1 : t.val % 8 = 7) (xs0 xs1 : Vec F S1024x1 .f32) :
    Vec F S1024x1 .f32 × Vec F S1024x1 .f32 × Vec F S1024x1 .f32 :=
  (VO1_4.read (Elt F) (VO1_4.writes (Elt F) VO1_4.junk (runC c t h0 h1 (iblk1 V c 0 t) (iblk1 V c 1 t) (iblk1 V c 2 t) (iblk1 V c 3 t) xs0 xs1).1),
   VS1_0.read (Elt F) (VS1_0.writes (Elt F) VS1_0.junk (runC c t h0 h1 (iblk1 V c 0 t) (iblk1 V c 1 t) (iblk1 V c 2 t) (iblk1 V c 3 t) xs0 xs1).2.1),
   VS1_1.read (Elt F) (VS1_1.writes (Elt F) VS1_1.junk (runC c t h0 h1 (iblk1 V c 0 t) (iblk1 V c 1 t) (iblk1 V c 2 t) (iblk1 V c 3 t) xs0 xs1).2.2.1))

/-! ## What the output block and the accumulators hold after each point -/

/-- After the body at position `n`: (the output block, the first accumulator, the second accumulator). -/
def outsAt1 (c : Dev nD) : (n : ℕ) → n < cfg1.N → Vec F S1024x1 .f32 × Vec F S1024x1 .f32 × Vec F S1024x1 .f32
  | 0, hn => caseA V c ⟨0, hn⟩ (Nat.zero_mod 8) (by show ¬(0 % 8 = 7); decide)
  | n + 1, hn =>
    if h0 : (n + 1) % 8 = 0 then caseA V c ⟨n + 1, hn⟩ h0 (by show ¬((n + 1) % 8 = 7); omega)
    else if h1 : (n + 1) % 8 = 7 then
      caseC V c ⟨n + 1, hn⟩ h0 h1 (outsAt1 c n (Nat.lt_of_succ_lt hn)).2.1 (outsAt1 c n (Nat.lt_of_succ_lt hn)).2.2
    else caseB V c ⟨n + 1, hn⟩ h0 h1 (outsAt1 c n (Nat.lt_of_succ_lt hn)).2.1 (outsAt1 c n (Nat.lt_of_succ_lt hn)).2.2

theorem outsAt1_A (c : Dev nD) (t : Fin cfg1.N) (h0 : t.val % 8 = 0) (h1 : ¬t.val % 8 = 7) :
    outsAt1 V c t.val t.isLt = caseA V c t h0 h1 := by
  obtain ⟨n, hn⟩ := t
  cases n with
  | zero => rfl
  | succ n => exact (dif_pos h0).trans rfl
theorem outsAt1_B (c : Dev nD) (t : Fin cfg1.N) (h0 : ¬t.val % 8 = 0) (h1 : ¬t.val % 8 = 7) :
    outsAt1 V c t.val t.isLt = caseB V c t h0 h1 (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd (Nat.zero_mod 8) h0
  | succ n => exact (dif_neg h0).trans ((dif_neg h1).trans rfl)
theorem outsAt1_C (c : Dev nD) (t : Fin cfg1.N) (h0 : ¬t.val % 8 = 0) (h1 : t.val % 8 = 7) :
    outsAt1 V c t.val t.isLt = caseC V c t h0 h1 (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd (Nat.zero_mod 8) h0
  | succ n => exact (dif_neg h0).trans ((dif_pos h1).trans rfl)

/-! ## The region's invariant -/

/-- A scoped buffer of the other pallas_call, whole at some contents. -/
abbrev oth (c : Dev nD) (b : Ref sig .tc) : sProp 𝕄 :=
  iprop(∃ f : Buf (Elt F) ((c : Thread nD τ).loc b), ((c : Thread nD τ).loc b) ↦{fullShare} f)
/-- The twelve staging buffers of the other pallas_call. -/
abbrev Rest12 (c : Dev nD) : sProp 𝕄 :=
  iprop(oth (F := F) c cc0_stg0_0 ∗ oth (F := F) c cc0_stg0_1 ∗ oth (F := F) c cc0_stg1_0 ∗ oth (F := F) c cc0_stg1_1 ∗ oth (F := F) c cc0_stg2_0 ∗ oth (F := F) c cc0_stg2_1 ∗ oth (F := F) c cc0_stg3_0 ∗ oth (F := F) c cc0_stg3_1 ∗ oth (F := F) c cc0_stg4_0 ∗ oth (F := F) c cc0_stg4_1 ∗ oth (F := F) c cc0_stg5_0 ∗ oth (F := F) c cc0_stg5_1)
/-- The core's scoped buffers that are no staging buffer of this pallas_call: those twelve, then the two accumulators
    as `S0` and `S1`. -/
abbrev R12 (c : Dev nD) (S0 S1 : sProp 𝕄) : sProp 𝕄 :=
  iprop(oth (F := F) c cc0_stg0_0 ∗ oth (F := F) c cc0_stg0_1 ∗ oth (F := F) c cc0_stg1_0 ∗ oth (F := F) c cc0_stg1_1 ∗ oth (F := F) c cc0_stg2_0 ∗ oth (F := F) c cc0_stg2_1 ∗ oth (F := F) c cc0_stg3_0 ∗ oth (F := F) c cc0_stg3_1 ∗ oth (F := F) c cc0_stg4_0 ∗ oth (F := F) c cc0_stg4_1 ∗ oth (F := F) c cc0_stg5_0 ∗ oth (F := F) c cc0_stg5_1 ∗ S0 ∗ S1)

theorem R12_out (c : Dev nD) (S0 S1 : sProp 𝕄) : R12 (F := F) c S0 S1 ⊢ iprop(Rest12 (F := F) c ∗ S0 ∗ S1) := by
  iintro ⟨H1, H2, H3, H4, H5, H6, H7, H8, H9, H10, H11, H12, HS0, HS1⟩
  isplitl [H1 H2 H3 H4 H5 H6 H7 H8 H9 H10 H11 H12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [HS0]; · iexact HS0
  iexact HS1
theorem R12_in (c : Dev nD) (S0 S1 : sProp 𝕄) : iprop(Rest12 (F := F) c ∗ S0 ∗ S1) ⊢ R12 (F := F) c S0 S1 := by
  iintro ⟨⟨H1, H2, H3, H4, H5, H6, H7, H8, H9, H10, H11, H12⟩, HS0, HS1⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  iexact HS1

/-- The class invariant with the two accumulators as memrefs owned at some contents. -/
theorem PhiA1_eq (c : Dev nD) :
    (Pipeline.ΦA spec1 c : sProp 𝕄)
      = iprop(R12 (F := F) c iprop(∃ d, owns (c : Thread nD τ) scM1_0 fullShare d) iprop(∃ d, owns (c : Thread nD τ) scM1_1 fullShare d) ∗ (∃ r, prngReg c r)) := by
  unfold Pipeline.ΦA; rw [scopedRest1_eq]; simp only [scM1_0, scM1_1, owns_whole]; try rfl

/-- The invariant before position `n`: before the first point the class's (every scoped buffer at anything);
    afterwards the two accumulators at what the point before left in them. -/
def PhiS (c : Dev nD) : (n : ℕ) → n ≤ cfg1.N → sProp 𝕄
  | 0, _ => Pipeline.ΦA spec1 c
  | n + 1, hn => iprop(R12 (F := F) c (owns (c : Thread nD τ) scM1_0 fullShare (outsAt1 V c n hn).2.1)
      (owns (c : Thread nD τ) scM1_1 fullShare (outsAt1 V c n hn).2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(R12 (F := F) c (owns (c : Thread nD τ) scM1_0 fullShare (outsAt1 V c n hn).2.1)
      (owns (c : Thread nD τ) scM1_1 fullShare (outsAt1 V c n hn).2.2) ∗ (∃ r, prngReg c r)) := rfl
theorem PhiS_pos (c : Dev nD) (n : ℕ) (h : n ≤ cfg1.N) (hz : n ≠ 0) :
    PhiS V c n h = iprop(R12 (F := F) c (owns (c : Thread nD τ) scM1_0 fullShare (outsAt1 V c (n - 1) (by omega)).2.1)
      (owns (c : Thread nD τ) scM1_1 fullShare (outsAt1 V c (n - 1) (by omega)).2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

theorem lv1_0 (c : Dev nD) (t : Fin cfg1.N) : (dat1 V c).leavesExact 0 t = owns (c : Thread nD τ) (ms1_0 t) fullShare (iblk1 V c 0 t) := by
  unfold Dat.leavesExact; rw [show cfg1.idle 0 (cfg1.grid.coords t) = false from rfl, after1_0]; try rfl
theorem lv1_1 (c : Dev nD) (t : Fin cfg1.N) : (dat1 V c).leavesExact 1 t = owns (c : Thread nD τ) (ms1_1 t) fullShare (iblk1 V c 1 t) := by
  unfold Dat.leavesExact; rw [show cfg1.idle 1 (cfg1.grid.coords t) = false from rfl, after1_1]; try rfl
theorem lv1_2 (c : Dev nD) (t : Fin cfg1.N) : (dat1 V c).leavesExact 2 t = owns (c : Thread nD τ) (ms1_2 t) fullShare (iblk1 V c 2 t) := by
  unfold Dat.leavesExact; rw [show cfg1.idle 2 (cfg1.grid.coords t) = false from rfl, after1_2]; try rfl
theorem lv1_3 (c : Dev nD) (t : Fin cfg1.N) : (dat1 V c).leavesExact 3 t = owns (c : Thread nD τ) (ms1_3 t) fullShare (iblk1 V c 3 t) := by
  unfold Dat.leavesExact; rw [show cfg1.idle 3 (cfg1.grid.coords t) = false from rfl, after1_3]; try rfl

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [lv1_0, lv1_1, lv1_2, lv1_3]
  have hN : t.val < 64 := lt_of_lt_of_eq t.isLt (show cfg1.N = 64 from N_1)
  by_cases h0 : t.val % 8 = 0
  · have h1 : ¬t.val % 8 = 7 := by omega
    have hc1 : ¬cond1_1 (grid1.coords t) := fun h => h1 ((hcond1_1 t).mp h)
    rw [Dat.leavesExact_idle (dat1 V c) 4 t (idleAt1_4 t hc1) (noFlush1_4 t hc1)]
    rw [outsAt1_A V c t h0 h1]
    unfold caseA; (try dsimp only)
    by_cases hz : t.val = 0
    · rw [PhiS_castSucc V c t, PhiS_zero V c _ _ hz, PhiA1_eq]
      iintro ⟨⟨HR, Hg⟩, Ho, ⟨%d0, H0⟩, ⟨%d1, H1⟩, ⟨%d2, H2⟩, ⟨%d3, H3⟩, ⟨%d4, H4⟩⟩
      ihave HR' := (R12_out c _ _) $$ HR
      icases HR' with ⟨Hrest, HS0, HS1⟩
      iapply ((runA c t h0 h1 (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [Hrest HS0 HS1 Hg]
      · isplitl [Hrest HS0 HS1]
        · iapply (R12_in c _ _)
          isplitl [Hrest]; · iexact Hrest
          isplitl [HS0]
          · unfold owns; iexists _; isplitr
            swap; · iexact HS0
            ipureintro; exact View.read_writes_of_cover _ _ _ _ _ (scoverA_0 c t _ _ _ _ _ _)
          · unfold owns; iexists _; isplitr
            swap; · iexact HS1
            ipureintro; exact View.read_writes_of_cover _ _ _ _ _ (scoverA_1 c t _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨HR, Hg⟩, Ho, ⟨%d0, H0⟩, ⟨%d1, H1⟩, ⟨%d2, H2⟩, ⟨%d3, H3⟩, ⟨%d4, H4⟩⟩
      ihave HR' := (R12_out c _ _) $$ HR
      icases HR' with ⟨Hrest, HS0, HS1⟩
      iapply ((runA c t h0 h1 (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [Hrest HS0 HS1 Hg]
      · isplitl [Hrest HS0 HS1]
        · iapply (R12_in c _ _)
          isplitl [Hrest]; · iexact Hrest
          isplitl [HS0]
          · unfold owns; iexists _; isplitr
            swap; · iexact HS0
            ipureintro; exact View.read_writes_of_cover _ _ _ _ _ (scoverA_0 c t _ _ _ _ _ _)
          · unfold owns; iexists _; isplitr
            swap; · iexact HS1
            ipureintro; exact View.read_writes_of_cover _ _ _ _ _ (scoverA_1 c t _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [outsAt1_C V c t h0 h1]
      unfold caseC; (try dsimp only)
      rw [PhiS_castSucc V c t, PhiS_pos V c _ _ hz]
      iintro ⟨⟨HR, Hg⟩, Ho, ⟨%d0, H0⟩, ⟨%d1, H1⟩, ⟨%d2, H2⟩, ⟨%d3, H3⟩, ⟨%d4, H4⟩⟩
      ihave HR' := (R12_out c _ _) $$ HR
      icases HR' with ⟨Hrest, HS0, HS1⟩
      iapply ((runC c t h0 h1 (iblk1 V c 0 t) (iblk1 V c 1 t) (iblk1 V c 2 t) (iblk1 V c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [Hrest HS0 HS1 Hg]
      · isplitl [Hrest HS0 HS1]
        · iapply (R12_in c _ _)
          isplitl [Hrest]; · iexact Hrest
          isplitl [HS0]
          · unfold owns; iexists _; isplitr
            swap; · iexact HS0
            ipureintro; exact View.read_writes_of_cover _ _ _ _ _ (scoverC_0 c t _ _ _ _ _ _ _ _)
          · unfold owns; iexists _; isplitr
            swap; · iexact HS1
            ipureintro; exact View.read_writes_of_cover _ _ _ _ _ (scoverC_1 c t _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 c t _ _ _ _ _ _ _ _)
    · have hc1 : ¬cond1_1 (grid1.coords t) := fun h => h1 ((hcond1_1 t).mp h)
      rw [Dat.leavesExact_idle (dat1 V c) 4 t (idleAt1_4 t hc1) (noFlush1_4 t hc1)]
      rw [outsAt1_B V c t h0 h1]
      unfold caseB; (try dsimp only)
      rw [PhiS_castSucc V c t, PhiS_pos V c _ _ hz]
      iintro ⟨⟨HR, Hg⟩, Ho, ⟨%d0, H0⟩, ⟨%d1, H1⟩, ⟨%d2, H2⟩, ⟨%d3, H3⟩, ⟨%d4, H4⟩⟩
      ihave HR' := (R12_out c _ _) $$ HR
      icases HR' with ⟨Hrest, HS0, HS1⟩
      iapply ((runB c t h0 h1 (iblk1 V c 0 t) (iblk1 V c 1 t) (iblk1 V c 2 t) (iblk1 V c 3 t) _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [Hrest HS0 HS1 Hg]
      · isplitl [Hrest HS0 HS1]
        · iapply (R12_in c _ _)
          isplitl [Hrest]; · iexact Hrest
          isplitl [HS0]
          · unfold owns; iexists _; isplitr
            swap; · iexact HS0
            ipureintro; exact View.read_writes_of_cover _ _ _ _ _ (scoverB_0 c t _ _ _ _ _ _ _ _)
          · unfold owns; iexists _; isplitr
            swap; · iexact HS1
            ipureintro; exact View.read_writes_of_cover _ _ _ _ _ (scoverB_1 c t _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: what the accumulators hold is forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl,
    PhiS_pos V c _ _ ht, PhiA1_eq]
  iintro ⟨HR, Hg⟩
  ihave HR' := (R12_out c _ _) $$ HR
  icases HR' with ⟨Hrest, HS0, HS1⟩
  isplitl [Hrest HS0 HS1]
  · iapply (R12_in c _ _)
    isplitl [Hrest]; · iexact Hrest
    isplitl [HS0]; · iexists _; iexact HS0
    iexists _; iexact HS1
  iexact Hg

end Cert.Kernel.Fr

end
-- ==== Proof.K.FrameRun.lean ====
/-
  The whole program as a run: the buffer contents at every boundary between @main's three items (the first pallas_call,
  the second, the closing host operations that take the mean), each pallas_call as a pipeline region entered from the
  contents the item before it left, and the launch: every weakly fair execution terminates, and every final memory
  holds each unscoped buffer at the last boundary's contents.  The frame claim (the argument arrays end as launched)
  is read off that.
-/
import proofs.«158616_j61976378081883_2_alg».proof.Proof.K.FrameR0
import proofs.«158616_j61976378081883_2_alg».proof.Proof.K.FrameR1
import proofs.«158616_j61976378081883_2_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first pallas_call's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first pallas_call: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the second pallas_call. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- After the closing host operations. -/
abbrev W3 : Dev nD → Valuation τ sig (Elt F) := fun c => StableHlo.after hostOps2 (W2 m ρ c)

/-! ### The arguments end as launched: no host operation writes one and each pallas_call only reads them -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_writes_sub hostOps2 _ hostOps2_writes (r := main_arg0) (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps2 _ hostOps2_writes (r := main_arg1) (by decide)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_writes_sub hostOps2 _ hostOps2_writes (r := main_arg2) (by decide)
    _ = W1 m ρ c (Proc.devRef .tc main_arg2) := W2_of_ne m ρ c main_arg2 (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_writes_sub hostOps2 _ hostOps2_writes (r := main_arg3) (by decide)
    _ = W1 m ρ c (Proc.devRef .tc main_arg3) := (W2_arr m ρ c 3).trans (((dat1 (V1 m ρ) c).arrAt_in 3 rfl _).trans (A_eq1 (V1 m ρ) c 3))
    _ = W0 m ρ c (Proc.devRef .tc main_arg3) := W1_of_ne m ρ c main_arg3 (by decide)
    _ = m ((c : Thread nD τ).loc main_arg3) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The two pallas_calls as regions -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its three items, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)) ]
theorem main_run (c : Dev nD) : main (F := F) c = Pipeline.Seg.run (segs m ρ) := (main_chain c).trans (by chain_rfl)

set_option backward.isDefEq.respectTransparency.types false in
/-- At the compiled mesh, from any memory with zero counters: every weakly fair execution of @main terminates,
    nothing faulting, and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame claim's run: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Fr

end
-- ==== Proof.KI.FrameR0.lean ====
/-
  The first pallas_call (the row normalisation) as a pipeline region, at any float instance: what the body leaves in
  each output window's staging buffer as a function of the three input blocks, the body's triple, the proof data over
  the buffer contents `V` the region is entered with, and the body obligation at every grid point.
  Every point fetches the three input blocks whole, stores each output block whole, and keeps nothing between points.
-/
import proofs.«158616_j61976378081883_2_alg».proof.Proof.Gen.KernelIdeal.Launch
import proofs.«158616_j61976378081883_2_alg».proof.Proof.Gen.KernelIdeal.Skeleton
import proofs.«158616_j61976378081883_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of a [1024, 512] buffer and of a [1024, 1] buffer: every access of the body is one of them. -/
abbrev rW : Rect S1024x512 := Rect.unit (s := S1024x512) ![0, 0] S1024x512.size inb_S1024x512_S1024x512_0_0
abbrev rC : Rect S1024x1 := Rect.unit (s := S1024x1) ![0, 0] S1024x1.size inb_S1024x1_S1024x1_0_0

/-- What the body leaves in each output window's staging buffer: its one whole-block store, over the input blocks. -/
def out0_3 (x0 : Vec F S1024x512 .f32) : Vec F S1024x512 .bf16 :=
  View.canon [⟨rW, k0_pay1 (View.ld x0 rW)⟩]
def out0_4 (x1 : Vec F S1024x512 .f32) : Vec F S1024x512 .bf16 :=
  View.canon [⟨rW, k0_pay2 (View.ld x1 rW)⟩]
def out0_5 (x0 x2 : Vec F S1024x512 .f32) : Vec F S1024x1 .f32 :=
  View.canon [⟨rC, k0_pay3 (View.ld x0 rW) (View.ld x2 rW)⟩]

theorem coverW (p0 : Vec F S1024x512 .bf16) (y : S1024x512.Idx) :
    ∃ pc ∈ ([⟨rW, p0⟩] : List (View.Piece (Elt F) S1024x512 .bf16)), y ∈ pc.1.set :=
  View.cover_of_tiled [⟨rW, p0⟩] S1024x512.size (by rfl) y
theorem coverC (p0 : Vec F S1024x1 .f32) (y : S1024x1.Idx) :
    ∃ pc ∈ ([⟨rC, p0⟩] : List (View.Piece (Elt F) S1024x1 .f32)), y ∈ pc.1.set :=
  View.cover_of_tiled [⟨rC, p0⟩] S1024x1.size (by rfl) y

set_option maxHeartbeats 2000000 in
/-- The body on whole staging memrefs, the inputs' at contents `x0 x1 x2` and the outputs' at anything, runs to the
    continuation with the inputs as they were and each output at its function of the inputs. -/
theorem sound_kernel0 (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x512 .f32) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x1 .f32) (harg6 : arg6.IsWhole)
    (x0 x1 x2 : Vec F S1024x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0) ∗ owns (c : Thread nD τ) arg5 fullShare (out0_4 x1)
            ∗ owns (c : Thread nD τ) arg6 fullShare (out0_5 x0 x2)) -∗ K ⟨⟩))
      ⊢ wp frame (wpE (defs₀ (F := F)) Variants.none c none) E (cc0__prep_kernel i arg1 harg1 arg2 harg2 arg3 harg3 arg4 harg4 arg5 harg5 arg6 harg6) K := by
  simp only [cc0__prep_kernel_eq_skeleton]; unfold cc0__prep_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverW _)
  isplitl [H4]
  · iexists _; isplitr
    swap; · iexact H4
    ipureintro
    exact View.read_writes_eq_canon _ _ _ (coverW _)
  iexists _; isplitr
  swap; · iexact H5
  ipureintro
  exact View.read_writes_eq_canon _ _ _ (coverC _)

/-- The proof data of the first pipeline on core `c`: the arrays as the region finds them; after the body at point
    `t` each input's buffer at its block and each output's at its function of the input blocks; the scoped rest and
    the generator register pass through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t)
    | ⟨4, _⟩ => out0_4 (iblk0 V c 1 t)
    | ⟨5, _⟩ => out0_5 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) := by dsimp only [dat0]
theorem after0_4 (c : Dev nD) (t : Fin cfg0.N) : (dat0 V c).after 4 t = out0_4 (iblk0 V c 1 t) := by dsimp only [dat0]
theorem after0_5 (c : Dev nD) (t : Fin cfg0.N) : (dat0 V c).after 5 t = out0_5 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.FrameR1Defs.lean ====
/-
  The second pallas_call (the tiled exp-sum reduction) as a pipeline region: what its three control cases share.
  The grid is 8 × 8, the column-tile coordinate innermost; a point's position is `t = 8·i + j`.  The body seeds its two
  accumulators from the seed block when `j = 0`, adds one column tile's row sums to them at every point, and stores the
  row losses into the output block when `j = 7`.  So there are three cases: `j = 0`, `0 < j < 7`, `j = 7`; the output
  window is idle (and not written back) in the first two, and the two accumulators are carried from point to point.
-/
import proofs.«158616_j61976378081883_2_alg».proof.Proof.Gen.KernelIdeal.Launch
import proofs.«158616_j61976378081883_2_alg».proof.Proof.Gen.KernelIdeal.Skeleton
import proofs.«158616_j61976378081883_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- The first branch is taken exactly at the first column tile of a row tile. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second branch is taken exactly at the last column tile of a row tile. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle -/

theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the pipeline calls the body with -/

abbrev VO1_4 : View sig .tc .vmem S1024x1 .f32 := (Memref.whole cc1_stg4_0 : Memref sig .tc .vmem S1024x1 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
/-- The two accumulators: whole scoped buffers of the kernel's own. -/
abbrev scM1_0 : Memref sig .tc .vmem S1024x1 .f32 := Memref.whole cc1_scratch0
abbrev scM1_1 : Memref sig .tc .vmem S1024x1 .f32 := Memref.whole cc1_scratch1
abbrev VS1_0 : View sig .tc .vmem S1024x1 .f32 := scM1_0.view
abbrev VS1_1 : View sig .tc .vmem S1024x1 .f32 := scM1_1.view

end Cert.KernelIdeal.Fr

end
-- ==== Proof.KI.FrameR1RunA.lean ====
/-
  The whole-body run of the second kernel in one control case: on whole staging memrefs holding the input blocks,
  the body runs to its end leaving the inputs as they were and each buffer it stores into with its stores written;
  which stores those are is found by running the body.
-/
import proofs.«158616_j61976378081883_2_alg».proof.Proof.KI.FrameR1Defs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords)
    (arg2 : Memref sig .tc .vmem S1024x512 .bf16) (harg2 : arg2.IsWhole) (arg3 : Memref sig .tc .vmem S8192x512 .bf16) (harg3 : arg3.IsWhole)
    (arg4 : Memref sig .tc .vmem S1024x1 .f32) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (hc0 : cond1_0 i) (hc1 : ¬cond1_1 i)
    (x0 : Vec F S1024x512 .bf16) (x1 : Vec F S8192x512 .bf16) (x2 : Vec F S1024x1 .f32) (x3 : Vec F S1024x1024 .f32) :
    Σ' (L4 : List (View.Piece (Elt F) S1024x1 .f32)) (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨[], ?_, ?_, fun xi4 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Fr

end
-- ==== Proof.KI.FrameR1RunB.lean ====
/-
  The whole-body run of the second kernel in one control case: on whole staging memrefs holding the input blocks,
  the body runs to its end leaving the inputs as they were and each buffer it stores into with its stores written;
  which stores those are is found by running the body.
-/
import proofs.«158616_j61976378081883_2_alg».proof.Proof.KI.FrameR1Defs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords)
    (arg2 : Memref sig .tc .vmem S1024x512 .bf16) (harg2 : arg2.IsWhole) (arg3 : Memref sig .tc .vmem S8192x512 .bf16) (harg3 : arg3.IsWhole)
    (arg4 : Memref sig .tc .vmem S1024x1 .f32) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (hc0 : ¬cond1_0 i) (hc1 : ¬cond1_1 i)
    (x0 : Vec F S1024x512 .bf16) (x1 : Vec F S8192x512 .bf16) (x2 : Vec F S1024x1 .f32) (x3 : Vec F S1024x1024 .f32) (xs0 xs1 : Vec F S1024x1 .f32) :
    Σ' (L4 : List (View.Piece (Elt F) S1024x1 .f32)) (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨[], ?_, ?_, fun xi4 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Fr

end
-- ==== Proof.KI.FrameR1RunC.lean ====
/-
  The whole-body run of the second kernel in one control case: on whole staging memrefs holding the input blocks,
  the body runs to its end leaving the inputs as they were and each buffer it stores into with its stores written;
  which stores those are is found by running the body.
-/
import proofs.«158616_j61976378081883_2_alg».proof.Proof.KI.FrameR1Defs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords)
    (arg2 : Memref sig .tc .vmem S1024x512 .bf16) (harg2 : arg2.IsWhole) (arg3 : Memref sig .tc .vmem S8192x512 .bf16) (harg3 : arg3.IsWhole)
    (arg4 : Memref sig .tc .vmem S1024x1 .f32) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (hc0 : ¬cond1_0 i) (hc1 : cond1_1 i)
    (x0 : Vec F S1024x512 .bf16) (x1 : Vec F S8192x512 .bf16) (x2 : Vec F S1024x1 .f32) (x3 : Vec F S1024x1024 .f32) (xs0 xs1 : Vec F S1024x1 .f32) :
    Σ' (L4 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨?_, ?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.KernelIdeal.Fr

end
-- ==== Proof.KI.FrameR1.lean ====
/-
  The second pallas_call as a pipeline region: what the output block and the two accumulators hold after each grid
  point, by recursion on the point's position (the case the position selects, run at the point's memrefs and input
  blocks, the accumulators taken from the point before); the region's invariant, which carries the two accumulators at
  those contents from one point to the next; the proof data; and the body obligation at every point.
-/
import proofs.«158616_j61976378081883_2_alg».proof.Proof.KI.FrameR1RunA
import proofs.«158616_j61976378081883_2_alg».proof.Proof.KI.FrameR1RunB
import proofs.«158616_j61976378081883_2_alg».proof.Proof.KI.FrameR1RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a grid point -/

def runA (c : Dev nD) (t : Fin cfg1.N) (h0 : t.val % 8 = 0) (h1 : ¬t.val % 8 = 7) (x0 : Vec F S1024x512 .bf16) (x1 : Vec F S8192x512 .bf16) (x2 : Vec F S1024x1 .f32) (x3 : Vec F S1024x1024 .f32) :=
  kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) x0 x1 x2 x3
def runB (c : Dev nD) (t : Fin cfg1.N) (h0 : ¬t.val % 8 = 0) (h1 : ¬t.val % 8 = 7) (x0 : Vec F S1024x512 .bf16) (x1 : Vec F S8192x512 .bf16) (x2 : Vec F S1024x1 .f32) (x3 : Vec F S1024x1024 .f32) (xs0 xs1 : Vec F S1024x1 .f32) :=
  kernelRun1_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) x0 x1 x2 x3 xs0 xs1
def runC (c : Dev nD) (t : Fin cfg1.N) (h0 : ¬t.val % 8 = 0) (h1 : t.val % 8 = 7) (x0 : Vec F S1024x512 .bf16) (x1 : Vec F S8192x512 .bf16) (x2 : Vec F S1024x1 .f32) (x3 : Vec F S1024x1024 .f32) (xs0 xs1 : Vec F S1024x1 .f32) :=
  kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) x0 x1 x2 x3 xs0 xs1

theorem scoverA_0 (c : Dev nD) (t : Fin cfg1.N) (h0 : t.val % 8 = 0) (h1 : ¬t.val % 8 = 7) (x0 : Vec F S1024x512 .bf16) (x1 : Vec F S8192x512 .bf16) (x2 : Vec F S1024x1 .f32) (x3 : Vec F S1024x1024 .f32) (y : S1024x1.Idx) :
    ∃ pc ∈ (runA c t h0 h1 x0 x1 x2 x3).2.1, y ∈ pc.1.set :=
  View.cover_of_tiledL (runA c t h0 h1 x0 x1 x2 x3).2.1 S1024x1.size (by sl_kernel_rfl) y
theorem scoverA_1 (c : Dev nD) (t : Fin cfg1.N) (h0 : t.val % 8 = 0) (h1 : ¬t.val % 8 = 7) (x0 : Vec F S1024x512 .bf16) (x1 : Vec F S8192x512 .bf16) (x2 : Vec F S1024x1 .f32) (x3 : Vec F S1024x1024 .f32) (y : S1024x1.Idx) :
    ∃ pc ∈ (runA c t h0 h1 x0 x1 x2 x3).2.2.1, y ∈ pc.1.set :=
  View.cover_of_tiledL (runA c t h0 h1 x0 x1 x2 x3).2.2.1 S1024x1.size (by sl_kernel_rfl) y
theorem scoverB_0 (c : Dev nD) (t : Fin cfg1.N) (h0 : ¬t.val % 8 = 0) (h1 : ¬t.val % 8 = 7) (x0 : Vec F S1024x512 .bf16) (x1 : Vec F S8192x512 .bf16) (x2 : Vec F S1024x1 .f32) (x3 : Vec F S1024x1024 .f32) (xs0 xs1 : Vec F S1024x1 .f32) (y : S1024x1.Idx) :
    ∃ pc ∈ (runB c t h0 h1 x0 x1 x2 x3 xs0 xs1).2.1, y ∈ pc.1.set :=
  View.cover_of_tiledL (runB c t h0 h1 x0 x1 x2 x3 xs0 xs1).2.1 S1024x1.size (by sl_kernel_rfl) y
theorem scoverB_1 (c : Dev nD) (t : Fin cfg1.N) (h0 : ¬t.val % 8 = 0) (h1 : ¬t.val % 8 = 7) (x0 : Vec F S1024x512 .bf16) (x1 : Vec F S8192x512 .bf16) (x2 : Vec F S1024x1 .f32) (x3 : Vec F S1024x1024 .f32) (xs0 xs1 : Vec F S1024x1 .f32) (y : S1024x1.Idx) :
    ∃ pc ∈ (runB c t h0 h1 x0 x1 x2 x3 xs0 xs1).2.2.1, y ∈ pc.1.set :=
  View.cover_of_tiledL (runB c t h0 h1 x0 x1 x2 x3 xs0 xs1).2.2.1 S1024x1.size (by sl_kernel_rfl) y
theorem scoverC_0 (c : Dev nD) (t : Fin cfg1.N) (h0 : ¬t.val % 8 = 0) (h1 : t.val % 8 = 7) (x0 : Vec F S1024x512 .bf16) (x1 : Vec F S8192x512 .bf16) (x2 : Vec F S1024x1 .f32) (x3 : Vec F S1024x1024 .f32) (xs0 xs1 : Vec F S1024x1 .f32) (y : S1024x1.Idx) :
    ∃ pc ∈ (runC c t h0 h1 x0 x1 x2 x3 xs0 xs1).2.1, y ∈ pc.1.set :=
  View.cover_of_tiledL (runC c t h0 h1 x0 x1 x2 x3 xs0 xs1).2.1 S1024x1.size (by sl_kernel_rfl) y
theorem scoverC_1 (c : Dev nD) (t : Fin cfg1.N) (h0 : ¬t.val % 8 = 0) (h1 : t.val % 8 = 7) (x0 : Vec F S1024x512 .bf16) (x1 : Vec F S8192x512 .bf16) (x2 : Vec F S1024x1 .f32) (x3 : Vec F S1024x1024 .f32) (xs0 xs1 : Vec F S1024x1 .f32) (y : S1024x1.Idx) :
    ∃ pc ∈ (runC c t h0 h1 x0 x1 x2 x3 xs0 xs1).2.2.1, y ∈ pc.1.set :=
  View.cover_of_tiledL (runC c t h0 h1 x0 x1 x2 x3 xs0 xs1).2.2.1 S1024x1.size (by sl_kernel_rfl) y
theorem coverC_4 (c : Dev nD) (t : Fin cfg1.N) (h0 : ¬t.val % 8 = 0) (h1 : t.val % 8 = 7) (x0 : Vec F S1024x512 .bf16) (x1 : Vec F S8192x512 .bf16) (x2 : Vec F S1024x1 .f32) (x3 : Vec F S1024x1024 .f32) (xs0 xs1 : Vec F S1024x1 .f32) (y : S1024x1.Idx) :
    ∃ pc ∈ (runC c t h0 h1 x0 x1 x2 x3 xs0 xs1).1, y ∈ pc.1.set :=
  View.cover_of_tiledL (runC c t h0 h1 x0 x1 x2 x3 xs0 xs1).1 S1024x1.size (by sl_kernel_rfl) y

/-- What a case leaves in the output block (a placeholder where the case stores nothing into it) and in the two
    accumulators: its stores read back. -/
def caseA (c : Dev nD) (t : Fin cfg1.N) (h0 : t.val % 8 = 0) (h1 : ¬t.val % 8 = 7) :
    Vec F S1024x1 .f32 × Vec F S1024x1 .f32 × Vec F S1024x1 .f32 :=
  (VO1_4.read (Elt F) (VO1_4.writes (Elt F) VO1_4.junk (runA c t h0 h1 (iblk1 V c 0 t) (iblk1 V c 1 t) (iblk1 V c 2 t) (iblk1 V c 3 t)).1),
   VS1_0.read (Elt F) (VS1_0.writes (Elt F) VS1_0.junk (runA c t h0 h1 (iblk1 V c 0 t) (iblk1 V c 1 t) (iblk1 V c 2 t) (iblk1 V c 3 t)).2.1),
   VS1_1.read (Elt F) (VS1_1.writes (Elt F) VS1_1.junk (runA c t h0 h1 (iblk1 V c 0 t) (iblk1 V c 1 t) (iblk1 V c 2 t) (iblk1 V c 3 t)).2.2.1))
def caseB (c : Dev nD) (t : Fin cfg1.N) (h0 : ¬t.val % 8 = 0) (h1 : ¬t.val % 8 = 7) (xs0 xs1 : Vec F S1024x1 .f32) :
    Vec F S1024x1 .f32 × Vec F S1024x1 .f32 × Vec F S1024x1 .f32 :=
  (VO1_4.read (Elt F) (VO1_4.writes (Elt F) VO1_4.junk (runB c t h0 h1 (iblk1 V c 0 t) (iblk1 V c 1 t) (iblk1 V c 2 t) (iblk1 V c 3 t) xs0 xs1).1),
   VS1_0.read (Elt F) (VS1_0.writes (Elt F) VS1_0.junk (runB c t h0 h1 (iblk1 V c 0 t) (iblk1 V c 1 t) (iblk1 V c 2 t) (iblk1 V c 3 t) xs0 xs1).2.1),
   VS1_1.read (Elt F) (VS1_1.writes (Elt F) VS1_1.junk (runB c t h0 h1 (iblk1 V c 0 t) (iblk1 V c 1 t) (iblk1 V c 2 t) (iblk1 V c 3 t) xs0 xs1).2.2.1))
def caseC (c : Dev nD) (t : Fin cfg1.N) (h0 : ¬t.val % 8 = 0) (h1 : t.val % 8 = 7) (xs0 xs1 : Vec F S1024x1 .f32) :
    Vec F S1024x1 .f32 × Vec F S1024x1 .f32 × Vec F S1024x1 .f32 :=
  (VO1_4.read (Elt F) (VO1_4.writes (Elt F) VO1_4.junk (runC c t h0 h1 (iblk1 V c 0 t) (iblk1 V c 1 t) (iblk1 V c 2 t) (iblk1 V c 3 t) xs0 xs1).1),
   VS1_0.read (Elt F) (VS1_0.writes (Elt F) VS1_0.junk (runC c t h0 h1 (iblk1 V c 0 t) (iblk1 V c 1 t) (iblk1 V c 2 t) (iblk1 V c 3 t) xs0 xs1).2.1),
   VS1_1.read (Elt F) (VS1_1.writes (Elt F) VS1_1.junk (runC c t h0 h1 (iblk1 V c 0 t) (iblk1 V c 1 t) (iblk1 V c 2 t) (iblk1 V c 3 t) xs0 xs1).2.2.1))

/-! ## What the output block and the accumulators hold after each point -/

/-- After the body at position `n`: (the output block, the first accumulator, the second accumulator). -/
def outsAt1 (c : Dev nD) : (n : ℕ) → n < cfg1.N → Vec F S1024x1 .f32 × Vec F S1024x1 .f32 × Vec F S1024x1 .f32
  | 0, hn => caseA V c ⟨0, hn⟩ (Nat.zero_mod 8) (by show ¬(0 % 8 = 7); decide)
  | n + 1, hn =>
    if h0 : (n + 1) % 8 = 0 then caseA V c ⟨n + 1, hn⟩ h0 (by show ¬((n + 1) % 8 = 7); omega)
    else if h1 : (n + 1) % 8 = 7 then
      caseC V c ⟨n + 1, hn⟩ h0 h1 (outsAt1 c n (Nat.lt_of_succ_lt hn)).2.1 (outsAt1 c n (Nat.lt_of_succ_lt hn)).2.2
    else caseB V c ⟨n + 1, hn⟩ h0 h1 (outsAt1 c n (Nat.lt_of_succ_lt hn)).2.1 (outsAt1 c n (Nat.lt_of_succ_lt hn)).2.2

theorem outsAt1_A (c : Dev nD) (t : Fin cfg1.N) (h0 : t.val % 8 = 0) (h1 : ¬t.val % 8 = 7) :
    outsAt1 V c t.val t.isLt = caseA V c t h0 h1 := by
  obtain ⟨n, hn⟩ := t
  cases n with
  | zero => rfl
  | succ n => exact (dif_pos h0).trans rfl
theorem outsAt1_B (c : Dev nD) (t : Fin cfg1.N) (h0 : ¬t.val % 8 = 0) (h1 : ¬t.val % 8 = 7) :
    outsAt1 V c t.val t.isLt = caseB V c t h0 h1 (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd (Nat.zero_mod 8) h0
  | succ n => exact (dif_neg h0).trans ((dif_neg h1).trans rfl)
theorem outsAt1_C (c : Dev nD) (t : Fin cfg1.N) (h0 : ¬t.val % 8 = 0) (h1 : t.val % 8 = 7) :
    outsAt1 V c t.val t.isLt = caseC V c t h0 h1 (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd (Nat.zero_mod 8) h0
  | succ n => exact (dif_neg h0).trans ((dif_pos h1).trans rfl)

/-! ## The region's invariant -/

/-- A scoped buffer of the other pallas_call, whole at some contents. -/
abbrev oth (c : Dev nD) (b : Ref sig .tc) : sProp 𝕄 :=
  iprop(∃ f : Buf (Elt F) ((c : Thread nD τ).loc b), ((c : Thread nD τ).loc b) ↦{fullShare} f)
/-- The twelve staging buffers of the other pallas_call. -/
abbrev Rest12 (c : Dev nD) : sProp 𝕄 :=
  iprop(oth (F := F) c cc0_stg0_0 ∗ oth (F := F) c cc0_stg0_1 ∗ oth (F := F) c cc0_stg1_0 ∗ oth (F := F) c cc0_stg1_1 ∗ oth (F := F) c cc0_stg2_0 ∗ oth (F := F) c cc0_stg2_1 ∗ oth (F := F) c cc0_stg3_0 ∗ oth (F := F) c cc0_stg3_1 ∗ oth (F := F) c cc0_stg4_0 ∗ oth (F := F) c cc0_stg4_1 ∗ oth (F := F) c cc0_stg5_0 ∗ oth (F := F) c cc0_stg5_1)
/-- The core's scoped buffers that are no staging buffer of this pallas_call: those twelve, then the two accumulators
    as `S0` and `S1`. -/
abbrev R12 (c : Dev nD) (S0 S1 : sProp 𝕄) : sProp 𝕄 :=
  iprop(oth (F := F) c cc0_stg0_0 ∗ oth (F := F) c cc0_stg0_1 ∗ oth (F := F) c cc0_stg1_0 ∗ oth (F := F) c cc0_stg1_1 ∗ oth (F := F) c cc0_stg2_0 ∗ oth (F := F) c cc0_stg2_1 ∗ oth (F := F) c cc0_stg3_0 ∗ oth (F := F) c cc0_stg3_1 ∗ oth (F := F) c cc0_stg4_0 ∗ oth (F := F) c cc0_stg4_1 ∗ oth (F := F) c cc0_stg5_0 ∗ oth (F := F) c cc0_stg5_1 ∗ S0 ∗ S1)

theorem R12_out (c : Dev nD) (S0 S1 : sProp 𝕄) : R12 (F := F) c S0 S1 ⊢ iprop(Rest12 (F := F) c ∗ S0 ∗ S1) := by
  iintro ⟨H1, H2, H3, H4, H5, H6, H7, H8, H9, H10, H11, H12, HS0, HS1⟩
  isplitl [H1 H2 H3 H4 H5 H6 H7 H8 H9 H10 H11 H12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [HS0]; · iexact HS0
  iexact HS1
theorem R12_in (c : Dev nD) (S0 S1 : sProp 𝕄) : iprop(Rest12 (F := F) c ∗ S0 ∗ S1) ⊢ R12 (F := F) c S0 S1 := by
  iintro ⟨⟨H1, H2, H3, H4, H5, H6, H7, H8, H9, H10, H11, H12⟩, HS0, HS1⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  iexact HS1

/-- The class invariant with the two accumulators as memrefs owned at some contents. -/
theorem PhiA1_eq (c : Dev nD) :
    (Pipeline.ΦA spec1 c : sProp 𝕄)
      = iprop(R12 (F := F) c iprop(∃ d, owns (c : Thread nD τ) scM1_0 fullShare d) iprop(∃ d, owns (c : Thread nD τ) scM1_1 fullShare d) ∗ (∃ r, prngReg c r)) := by
  unfold Pipeline.ΦA; rw [scopedRest1_eq]; simp only [scM1_0, scM1_1, owns_whole]; try rfl

/-- The invariant before position `n`: before the first point the class's (every scoped buffer at anything);
    afterwards the two accumulators at what the point before left in them. -/
def PhiS (c : Dev nD) : (n : ℕ) → n ≤ cfg1.N → sProp 𝕄
  | 0, _ => Pipeline.ΦA spec1 c
  | n + 1, hn => iprop(R12 (F := F) c (owns (c : Thread nD τ) scM1_0 fullShare (outsAt1 V c n hn).2.1)
      (owns (c : Thread nD τ) scM1_1 fullShare (outsAt1 V c n hn).2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(R12 (F := F) c (owns (c : Thread nD τ) scM1_0 fullShare (outsAt1 V c n hn).2.1)
      (owns (c : Thread nD τ) scM1_1 fullShare (outsAt1 V c n hn).2.2) ∗ (∃ r, prngReg c r)) := rfl
theorem PhiS_pos (c : Dev nD) (n : ℕ) (h : n ≤ cfg1.N) (hz : n ≠ 0) :
    PhiS V c n h = iprop(R12 (F := F) c (owns (c : Thread nD τ) scM1_0 fullShare (outsAt1 V c (n - 1) (by omega)).2.1)
      (owns (c : Thread nD τ) scM1_1 fullShare (outsAt1 V c (n - 1) (by omega)).2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

theorem lv1_0 (c : Dev nD) (t : Fin cfg1.N) : (dat1 V c).leavesExact 0 t = owns (c : Thread nD τ) (ms1_0 t) fullShare (iblk1 V c 0 t) := by
  unfold Dat.leavesExact; rw [show cfg1.idle 0 (cfg1.grid.coords t) = false from rfl, after1_0]; try rfl
theorem lv1_1 (c : Dev nD) (t : Fin cfg1.N) : (dat1 V c).leavesExact 1 t = owns (c : Thread nD τ) (ms1_1 t) fullShare (iblk1 V c 1 t) := by
  unfold Dat.leavesExact; rw [show cfg1.idle 1 (cfg1.grid.coords t) = false from rfl, after1_1]; try rfl
theorem lv1_2 (c : Dev nD) (t : Fin cfg1.N) : (dat1 V c).leavesExact 2 t = owns (c : Thread nD τ) (ms1_2 t) fullShare (iblk1 V c 2 t) := by
  unfold Dat.leavesExact; rw [show cfg1.idle 2 (cfg1.grid.coords t) = false from rfl, after1_2]; try rfl
theorem lv1_3 (c : Dev nD) (t : Fin cfg1.N) : (dat1 V c).leavesExact 3 t = owns (c : Thread nD τ) (ms1_3 t) fullShare (iblk1 V c 3 t) := by
  unfold Dat.leavesExact; rw [show cfg1.idle 3 (cfg1.grid.coords t) = false from rfl, after1_3]; try rfl

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [lv1_0, lv1_1, lv1_2, lv1_3]
  have hN : t.val < 64 := lt_of_lt_of_eq t.isLt (show cfg1.N = 64 from N_1)
  by_cases h0 : t.val % 8 = 0
  · have h1 : ¬t.val % 8 = 7 := by omega
    have hc1 : ¬cond1_1 (grid1.coords t) := fun h => h1 ((hcond1_1 t).mp h)
    rw [Dat.leavesExact_idle (dat1 V c) 4 t (idleAt1_4 t hc1) (noFlush1_4 t hc1)]
    rw [outsAt1_A V c t h0 h1]
    unfold caseA; (try dsimp only)
    by_cases hz : t.val = 0
    · rw [PhiS_castSucc V c t, PhiS_zero V c _ _ hz, PhiA1_eq]
      iintro ⟨⟨HR, Hg⟩, Ho, ⟨%d0, H0⟩, ⟨%d1, H1⟩, ⟨%d2, H2⟩, ⟨%d3, H3⟩, ⟨%d4, H4⟩⟩
      ihave HR' := (R12_out c _ _) $$ HR
      icases HR' with ⟨Hrest, HS0, HS1⟩
      iapply ((runA c t h0 h1 (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [Hrest HS0 HS1 Hg]
      · isplitl [Hrest HS0 HS1]
        · iapply (R12_in c _ _)
          isplitl [Hrest]; · iexact Hrest
          isplitl [HS0]
          · unfold owns; iexists _; isplitr
            swap; · iexact HS0
            ipureintro; exact View.read_writes_of_cover _ _ _ _ _ (scoverA_0 c t _ _ _ _ _ _)
          · unfold owns; iexists _; isplitr
            swap; · iexact HS1
            ipureintro; exact View.read_writes_of_cover _ _ _ _ _ (scoverA_1 c t _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨HR, Hg⟩, Ho, ⟨%d0, H0⟩, ⟨%d1, H1⟩, ⟨%d2, H2⟩, ⟨%d3, H3⟩, ⟨%d4, H4⟩⟩
      ihave HR' := (R12_out c _ _) $$ HR
      icases HR' with ⟨Hrest, HS0, HS1⟩
      iapply ((runA c t h0 h1 (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [Hrest HS0 HS1 Hg]
      · isplitl [Hrest HS0 HS1]
        · iapply (R12_in c _ _)
          isplitl [Hrest]; · iexact Hrest
          isplitl [HS0]
          · unfold owns; iexists _; isplitr
            swap; · iexact HS0
            ipureintro; exact View.read_writes_of_cover _ _ _ _ _ (scoverA_0 c t _ _ _ _ _ _)
          · unfold owns; iexists _; isplitr
            swap; · iexact HS1
            ipureintro; exact View.read_writes_of_cover _ _ _ _ _ (scoverA_1 c t _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [outsAt1_C V c t h0 h1]
      unfold caseC; (try dsimp only)
      rw [PhiS_castSucc V c t, PhiS_pos V c _ _ hz]
      iintro ⟨⟨HR, Hg⟩, Ho, ⟨%d0, H0⟩, ⟨%d1, H1⟩, ⟨%d2, H2⟩, ⟨%d3, H3⟩, ⟨%d4, H4⟩⟩
      ihave HR' := (R12_out c _ _) $$ HR
      icases HR' with ⟨Hrest, HS0, HS1⟩
      iapply ((runC c t h0 h1 (iblk1 V c 0 t) (iblk1 V c 1 t) (iblk1 V c 2 t) (iblk1 V c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [Hrest HS0 HS1 Hg]
      · isplitl [Hrest HS0 HS1]
        · iapply (R12_in c _ _)
          isplitl [Hrest]; · iexact Hrest
          isplitl [HS0]
          · unfold owns; iexists _; isplitr
            swap; · iexact HS0
            ipureintro; exact View.read_writes_of_cover _ _ _ _ _ (scoverC_0 c t _ _ _ _ _ _ _ _)
          · unfold owns; iexists _; isplitr
            swap; · iexact HS1
            ipureintro; exact View.read_writes_of_cover _ _ _ _ _ (scoverC_1 c t _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 c t _ _ _ _ _ _ _ _)
    · have hc1 : ¬cond1_1 (grid1.coords t) := fun h => h1 ((hcond1_1 t).mp h)
      rw [Dat.leavesExact_idle (dat1 V c) 4 t (idleAt1_4 t hc1) (noFlush1_4 t hc1)]
      rw [outsAt1_B V c t h0 h1]
      unfold caseB; (try dsimp only)
      rw [PhiS_castSucc V c t, PhiS_pos V c _ _ hz]
      iintro ⟨⟨HR, Hg⟩, Ho, ⟨%d0, H0⟩, ⟨%d1, H1⟩, ⟨%d2, H2⟩, ⟨%d3, H3⟩, ⟨%d4, H4⟩⟩
      ihave HR' := (R12_out c _ _) $$ HR
      icases HR' with ⟨Hrest, HS0, HS1⟩
      iapply ((runB c t h0 h1 (iblk1 V c 0 t) (iblk1 V c 1 t) (iblk1 V c 2 t) (iblk1 V c 3 t) _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [Hrest HS0 HS1 Hg]
      · isplitl [Hrest HS0 HS1]
        · iapply (R12_in c _ _)
          isplitl [Hrest]; · iexact Hrest
          isplitl [HS0]
          · unfold owns; iexists _; isplitr
            swap; · iexact HS0
            ipureintro; exact View.read_writes_of_cover _ _ _ _ _ (scoverB_0 c t _ _ _ _ _ _ _ _)
          · unfold owns; iexists _; isplitr
            swap; · iexact HS1
            ipureintro; exact View.read_writes_of_cover _ _ _ _ _ (scoverB_1 c t _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: what the accumulators hold is forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl,
    PhiS_pos V c _ _ ht, PhiA1_eq]
  iintro ⟨HR, Hg⟩
  ihave HR' := (R12_out c _ _) $$ HR
  icases HR' with ⟨Hrest, HS0, HS1⟩
  isplitl [Hrest HS0 HS1]
  · iapply (R12_in c _ _)
    isplitl [Hrest]; · iexact Hrest
    isplitl [HS0]; · iexists _; iexact HS0
    iexists _; iexact HS1
  iexact Hg

end Cert.KernelIdeal.Fr

end
-- ==== Proof.KI.FrameRun.lean ====
/-
  The whole program as a run: the buffer contents at every boundary between @main's three items (the first pallas_call,
  the second, the closing host operations that take the mean), each pallas_call as a pipeline region entered from the
  contents the item before it left, and the launch: every weakly fair execution terminates, and every final memory
  holds each unscoped buffer at the last boundary's contents.  The frame claim (the argument arrays end as launched)
  is read off that.
-/
import proofs.«158616_j61976378081883_2_alg».proof.Proof.KI.FrameR0
import proofs.«158616_j61976378081883_2_alg».proof.Proof.KI.FrameR1
import proofs.«158616_j61976378081883_2_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first pallas_call's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first pallas_call: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the second pallas_call. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- After the closing host operations. -/
abbrev W3 : Dev nD → Valuation τ sig (Elt F) := fun c => StableHlo.after hostOps2 (W2 m ρ c)

/-! ### The arguments end as launched: no host operation writes one and each pallas_call only reads them -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_writes_sub hostOps2 _ hostOps2_writes (r := main_arg0) (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps2 _ hostOps2_writes (r := main_arg1) (by decide)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_writes_sub hostOps2 _ hostOps2_writes (r := main_arg2) (by decide)
    _ = W1 m ρ c (Proc.devRef .tc main_arg2) := W2_of_ne m ρ c main_arg2 (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_writes_sub hostOps2 _ hostOps2_writes (r := main_arg3) (by decide)
    _ = W1 m ρ c (Proc.devRef .tc main_arg3) := (W2_arr m ρ c 3).trans (((dat1 (V1 m ρ) c).arrAt_in 3 rfl _).trans (A_eq1 (V1 m ρ) c 3))
    _ = W0 m ρ c (Proc.devRef .tc main_arg3) := W1_of_ne m ρ c main_arg3 (by decide)
    _ = m ((c : Thread nD τ).loc main_arg3) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The two pallas_calls as regions -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its three items, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)) ]
theorem main_run (c : Dev nD) : main (F := F) c = Pipeline.Seg.run (segs m ρ) := (main_chain c).trans (by chain_rfl)

set_option backward.isDefEq.respectTransparency.types false in
/-- At the compiled mesh, from any memory with zero counters: every weakly fair execution of @main terminates,
    nothing faulting, and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame claim's run: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Fr

end
-- ==== Proof.Spec.lean ====
/-
  The mathematics of the contrastive loss, stated once over whole arrays of extended reals, index by index.

  For a row `n` of an array `x : [8192, 512]`, `den x n` is the Euclidean norm of the row clamped below by a small
  positive literal, and `zn x n h = x[n,h] / den x n` the normalised entry.  With `S[n,m] = Σ_h zn x1 n h · zn x2 m h`
  the reference forms `fx[n,m] = exp (S[n,m] / ½)`, the seed `nts n = exp ((Σ_h pse[n,h] · x1[n,h]) / ½)`, the two
  row sums `nts n + Σ_m fx[n,m] · gat[n,m]` and `nts n + Σ_m fx[n,m]`, and the row loss `-(log (num / (den' + ε)))`.

  The tiled form doubles the first factor before the product (`Σ_h (zn x1 n h · 2) · zn x2 m h`), takes `exp` of that
  directly, adds the row sums eight column tiles of 1024 at a time onto the seed, left to right, and negates as `0 - ·`.
  The two row losses are equal when `x1` and `x2` hold real numbers: the normalised entries are then real, so the
  doubling moves out of the finite sum and `s · 2 = s / ½`; the rest is associativity and commutativity of `+`.
-/
import Idealize.ShloMosaic.PureOps.Ideal
import Idealize.ShloMosaic.Lib.ValueIdx

noncomputable section

open scoped BigOperators

namespace Cert.Spec

open Idealize.ShloMosaic Idealize.ShloMosaic.ValueIdx

/-- A whole array of extended reals of shape `[r, c]`. -/
abbrev Arr (r c : ℕ) : Type := (⟨2, ![r, c]⟩ : Shape).Idx → EReal

/-- The literals of the computation, as the extended reals their patterns denote. -/
def epsNorm : EReal := Ideal.ofBits .f32 0x2B8CBCCC#32
def epsDen : EReal := Ideal.ofBits .f32 0x322BCC77#32
def half : EReal := Ideal.ofBits .f32 0x3F000000#32
def two : EReal := Ideal.ofBits .f32 0x40000000#32
def zero : EReal := Ideal.ofBits .f32 0x00000000#32
def n8192 : EReal := Ideal.ofBits .f32 0x46000000#32

/-- The clamped Euclidean norm of row `n`. -/
def den (x : Arr 8192 512) (n : Fin 8192) : EReal :=
  max (Ideal.sqrt (∑ h : Fin 512, x (ix2 n h) * x (ix2 n h))) epsNorm

/-- The normalised entry. -/
def zn (x : Arr 8192 512) (n : Fin 8192) (h : Fin 512) : EReal := Ideal.div (x (ix2 n h)) (den x n)

/-- The seed of both row sums. -/
def nts (pse x1 : Arr 8192 512) (n : Fin 8192) : EReal :=
  Ideal.exp (Ideal.div (∑ h : Fin 512, pse (ix2 n h) * x1 (ix2 n h)) half)

/-! ## The reference's arrangement -/

def refFx (x1 x2 : Arr 8192 512) (n m : Fin 8192) : EReal :=
  Ideal.exp (Ideal.div (∑ h : Fin 512, zn x1 n h * zn x2 m h) half)

def refNum (x1 x2 pse : Arr 8192 512) (gat : Arr 8192 8192) (n : Fin 8192) : EReal :=
  nts pse x1 n + ∑ m : Fin 8192, refFx x1 x2 n m * gat (ix2 n m)

def refDen (x1 x2 pse : Arr 8192 512) (n : Fin 8192) : EReal :=
  nts pse x1 n + ∑ m : Fin 8192, refFx x1 x2 n m

/-- The reference's row loss. -/
def refLoss (x1 x2 pse : Arr 8192 512) (gat : Arr 8192 8192) (n : Fin 8192) : EReal :=
  -(Ideal.log (Ideal.div (refNum x1 x2 pse gat n) (refDen x1 x2 pse n + epsDen)))

/-! ## The tiled arrangement -/

/-- Column `l` of column tile `j`. -/
def col (j : Fin 8) (l : Fin 1024) : Fin 8192 := ⟨j.val * 1024 + l.val, by have := j.isLt; have := l.isLt; omega⟩

def kerFx (x1 x2 : Arr 8192 512) (n m : Fin 8192) : EReal :=
  Ideal.exp (∑ h : Fin 512, (zn x1 n h * two) * zn x2 m h)

/-- The tile sums of one row: with and without the weights. -/
def tileNum (x1 x2 : Arr 8192 512) (gat : Arr 8192 8192) (n : Fin 8192) (j : Fin 8) : EReal :=
  ∑ l : Fin 1024, kerFx x1 x2 n (col j l) * gat (ix2 n (col j l))

def tileDen (x1 x2 : Arr 8192 512) (n : Fin 8192) (j : Fin 8) : EReal :=
  ∑ l : Fin 1024, kerFx x1 x2 n (col j l)

/-- A seed with the first `k` tile sums added, left to right. -/
def accN (f : Fin 8 → EReal) (a0 : EReal) : ℕ → EReal
  | 0 => a0
  | k + 1 => accN f a0 k + (if h : k < 8 then f ⟨k, h⟩ else 0)

/-- The tiled row loss. -/
def kerLoss (x1 x2 pse : Arr 8192 512) (gat : Arr 8192 8192) (n : Fin 8192) : EReal :=
  zero - Ideal.log (Ideal.div (accN (tileNum x1 x2 gat n) (nts pse x1 n) 8)
    (accN (tileDen x1 x2 n) (nts pse x1 n) 8 + epsDen))

/-- The mean of the 8192 row losses as both programs take it: the zero literal plus the sum, divided by the literal 8192. -/
def mean (v : Fin 8192 → EReal) : EReal := Ideal.div (zero + ∑ n : Fin 8192, v n) n8192

/-- Every entry of an array is a real number. -/
def Finite {r c : ℕ} (x : Arr r c) : Prop := ∀ i, x i ≠ ⊤ ∧ x i ≠ ⊥

end Cert.Spec

end
-- ==== Proof.Spec2.lean ====
/-
  The tiled arrangement once more, over ARBITRARY factor arrays: for `A B : [8192, 512]`, a seed column `N : [8192, 1]`
  and weights `G : [8192, 8192]`, row `n` gets `0 - log (num / (den + ε))` where `num` and `den` are the seed with the
  eight column tiles' row sums of `exp (Σ_h A[n,h] · B[m,h])` (weighted by `G[n,m]`, resp. unweighted) added left to
  right.  At the doubled normalised `x1`, the normalised `x2` and the seed of the specification this is its tiled row loss.
-/
import proofs.«158616_j61976378081883_2_alg».proof.Proof.Spec

noncomputable section

open scoped BigOperators

namespace Cert.Spec

open Idealize.ShloMosaic Idealize.ShloMosaic.ValueIdx

/-- The doubled normalised array, the normalised array and the seed column, as whole arrays. -/
def Z1 (x : Arr 8192 512) : Arr 8192 512 := fun i => zn x (i 0) (i 1) * two
def Z2 (x : Arr 8192 512) : Arr 8192 512 := fun i => zn x (i 0) (i 1)
def NTS (pse x1 : Arr 8192 512) : Arr 8192 1 := fun i => nts pse x1 (i 0)

theorem Z1_apply (x : Arr 8192 512) (n : Fin 8192) (h : Fin 512) : Z1 x (ix2 n h) = zn x n h * two := rfl
theorem Z2_apply (x : Arr 8192 512) (n : Fin 8192) (h : Fin 512) : Z2 x (ix2 n h) = zn x n h := rfl
theorem NTS_apply (pse x1 : Arr 8192 512) (n : Fin 8192) (z : Fin 1) : NTS pse x1 (ix2 n z) = nts pse x1 n := rfl

def tExp (A B : Arr 8192 512) (n m : Fin 8192) : EReal := Ideal.exp (∑ h : Fin 512, A (ix2 n h) * B (ix2 m h))
def tNum (A B : Arr 8192 512) (G : Arr 8192 8192) (n : Fin 8192) (j : Fin 8) : EReal :=
  ∑ l : Fin 1024, tExp A B n (col j l) * G (ix2 n (col j l))
def tDen (A B : Arr 8192 512) (n : Fin 8192) (j : Fin 8) : EReal := ∑ l : Fin 1024, tExp A B n (col j l)
def tLoss (A B : Arr 8192 512) (N : Arr 8192 1) (G : Arr 8192 8192) (n : Fin 8192) : EReal :=
  zero - Ideal.log (Ideal.div (accN (tNum A B G n) (N (ix2 n (0 : Fin 1))) 8) (accN (tDen A B n) (N (ix2 n (0 : Fin 1))) 8 + epsDen))
/-- The column of row losses. -/
def TLoss (A B : Arr 8192 512) (N : Arr 8192 1) (G : Arr 8192 8192) : Arr 8192 1 := fun i => tLoss A B N G (i 0)
theorem TLoss_apply (A B : Arr 8192 512) (N : Arr 8192 1) (G : Arr 8192 8192) (n : Fin 8192) (z : Fin 1) :
    TLoss A B N G (ix2 n z) = tLoss A B N G n := rfl

theorem tLoss_Z (x1 x2 pse : Arr 8192 512) (gat : Arr 8192 8192) (n : Fin 8192) :
    tLoss (Z1 x1) (Z2 x2) (NTS pse x1) gat n = kerLoss x1 x2 pse gat n := rfl

end Cert.Spec

end
-- ==== Proof.KI.ValTail.lean ====
/-
  The closing host operations at the ideal instance: the sum of the [8192, 1] column of row losses onto the zero literal,
  divided by the literal 8192, is the specification's mean of the column's entries; and the program's result buffer at
  the last boundary is that mean of what the second pallas_call left in its output array.
-/
import proofs.«158616_j61976378081883_2_alg».proof.Proof.KI.FrameRun
import proofs.«158616_j61976378081883_2_alg».proof.Proof.Spec2
import Idealize.ShloMosaic.Lib.ValueIdx
import Idealize.ShloMosaic.Lib.StableHlo.Run
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen Cert.KernelIdeal.Fr

/-- The host's sum over both axes of a column: the initial value plus the sum of all entries. -/
theorem red_all (v : FVec Ideal S8192x1 .f32) (init : FVec Ideal S_ .f32) (i : S_.Idx) :
    Host.reduceAdd (F := Ideal) v init reducesTo_S8192x1_S_d0_1 h_S_ i = init (Shape.Idx.first h_S_) + ∑ j : S8192x1.Idx, v j := by
  simp only [Host.reduceAdd, Ideal.hostReduceAdd_def]
  exact Ideal.hostReduceAdd_total reducesTo_S8192x1_S_d0_1 (fun b => b.elim0) v _ i

/-- The two closing operations on a column `v` are the mean of its entries. -/
theorem tail_eq (v : FVec Ideal S8192x1 .f32) :
    Host.divf (F := Ideal) (Host.reduceAdd (F := Ideal) v (constant (F := Ideal) S_ .f32 0x00000000#32) reducesTo_S8192x1_S_d0_1 h_S_)
        (constant (F := Ideal) S_ .f32 0x46000000#32)
      = fun _ => Cert.Spec.mean (fun n => v (ix2 n (0 : Fin 1))) := by
  funext i
  show FloatOps.hostDivf (Host.reduceAdd (F := Ideal) v (constant (F := Ideal) S_ .f32 0x00000000#32) reducesTo_S8192x1_S_d0_1 h_S_ i)
      (FloatOps.ofBits (F := Ideal) .f32 0x46000000#32) = _
  rw [red_all, sum_idx2]
  simp only [Fin.sum_univ_one, Ideal.hostDivf_def, Ideal.ofBits_def]
  rfl

variable (m : (ℓ : Loc nD τ sig) → Buf (Elt Ideal) ℓ) (ρ : Dev nD → PrngReg) (c : Dev nD)

/-- The result buffer at the last boundary: the closing operations applied to the second pallas_call's output array. -/
theorem W3_v3_raw : W3 (F := Ideal) m ρ c (Proc.devRef .tc main_v3)
    = fun _ => Cert.Spec.mean (fun n => (dat1 (F := Ideal) (V1 m ρ) c).arrAt 4 cfg1.N (ix2 n (0 : Fin 1))) := by
  have e : W3 (F := Ideal) m ρ c (Proc.devRef .tc main_v3)
      = Host.divf (F := Ideal) (Host.reduceAdd (F := Ideal) (W2 (F := Ideal) m ρ c (Proc.devRef .tc main_v1))
          (constant (F := Ideal) S_ .f32 0x00000000#32) reducesTo_S8192x1_S_d0_1 h_S_) (constant (F := Ideal) S_ .f32 0x46000000#32) := by
    show StableHlo.after hostOps2 (W2 (F := Ideal) m ρ c) (Proc.devRef .tc main_v3) = _
    after_results
  rw [e, tail_eq, W2_arr m ρ c 4]
  rfl

end Cert.KernelIdeal.Val

end
-- ==== Proof.PayPrep.lean ====
/-
  The first kernel's three stored values read at an index, over extended reals: a normalised entry is the entry over
  the clamped Euclidean norm of its row (once doubled), and the seed is the exponential of a row's inner product over
  one half. Three small index lemmas come first: the sum along the second axis of a matrix, the cast of a vector to a
  column, and the broadcast of a column along rows.
-/
import proofs.«158616_j61976378081883_2_alg».proof.Proof.Gen.KernelIdeal.Skeleton
import proofs.«158616_j61976378081883_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayIdx

open Idealize.ShloMosaic Idealize.ShloMosaic.ValueIdx Cert.KernelIdeal Cert.KernelIdeal.Gen

variable {α : Type}

/-- The sum of a matrix along its second axis, read at row `p`: the sum of the row's entries. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => match c with
      | ⟨0, _⟩ => Fin.ext rfl
      | ⟨1, _⟩ => Fin.ext rfl))

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first normalised block, doubled: entry `(p, q)` over the clamped Euclidean norm of row `p`, times two
    (the narrowing to the short format is the identity on extended reals). -/
theorem pay1_apply (v0 : FVec Ideal S1024x512 .f32) (p : Fin 1024) (q : Fin 512) :
    k0_pay1 (F := Ideal) v0 (ix2 p q) = Ideal.div (v0 (ix2 p q)) (max (Ideal.sqrt (∑ h : Fin 512, v0 (ix2 p h) * v0 (ix2 p h))) Cert.Spec.epsNorm) * Cert.Spec.two := by
  unfold k0_pay1
  show Ideal.div (v0 (ix2 p q)) (broadcastTo S1024x512 _ _ (ix2 p q)) * Ideal.ofBits .f32 0x40000000#32 = _
  refine congrArg (fun x => Ideal.div (v0 (ix2 p q)) x * Cert.Spec.two) ?_
  refine (broadcastTo_a1_ab_apply _ _ p q).trans ?_
  show max (Ideal.sqrt (shapeCast S1024x1 _ _ (ix2 p (0 : Fin 1)))) (Ideal.ofBits .f32 0x2B8CBCCC#32) = _
  refine congrArg (fun x => max (Ideal.sqrt x) Cert.Spec.epsNorm) ?_
  refine (shapeCast_a_a1_apply _ _ p 0).trans ?_
  exact laneSum_apply _ _ _ _ p

/-- The second normalised block: entry `(p, q)` over the clamped Euclidean norm of row `p`. -/
theorem pay2_apply (v1 : FVec Ideal S1024x512 .f32) (p : Fin 1024) (q : Fin 512) :
    k0_pay2 (F := Ideal) v1 (ix2 p q) = Ideal.div (v1 (ix2 p q)) (max (Ideal.sqrt (∑ h : Fin 512, v1 (ix2 p h) * v1 (ix2 p h))) Cert.Spec.epsNorm) := by
  unfold k0_pay2
  show Ideal.div (v1 (ix2 p q)) (broadcastTo S1024x512 _ _ (ix2 p q)) = _
  refine congrArg (Ideal.div (v1 (ix2 p q))) ?_
  refine (broadcastTo_a1_ab_apply _ _ p q).trans ?_
  show max (Ideal.sqrt (shapeCast S1024x1 _ _ (ix2 p (0 : Fin 1)))) (Ideal.ofBits .f32 0x2B8CBCCC#32) = _
  refine congrArg (fun x => max (Ideal.sqrt x) Cert.Spec.epsNorm) ?_
  refine (shapeCast_a_a1_apply _ _ p 0).trans ?_
  exact laneSum_apply _ _ _ _ p

/-- The seed column: the exponential of row `p`'s inner product over one half. -/
theorem pay3_apply (v0 v2 : FVec Ideal S1024x512 .f32) (p : Fin 1024) :
    k0_pay3 (F := Ideal) v0 v2 (ix2 p (0 : Fin 1)) = Ideal.exp (Ideal.div (∑ h : Fin 512, v2 (ix2 p h) * v0 (ix2 p h)) Cert.Spec.half) := by
  unfold k0_pay3
  show Ideal.exp (Ideal.div (shapeCast S1024x1 _ _ (ix2 p (0 : Fin 1))) (Ideal.ofBits .f32 0x3F000000#32)) = _
  refine congrArg (fun x => Ideal.exp (Ideal.div x Cert.Spec.half)) ?_
  refine (shapeCast_a_a1_apply _ _ p 0).trans ?_
  exact laneSum_apply _ _ _ _ p

end Cert.KernelIdeal.PayIdx

end
-- ==== Proof.KI.ValR0.lean ====
/-
  The first region's three result arrays after its eight grid points, as whole-array functions of its three argument
  arrays, over extended reals.

  Grid point `t` reads rows `1024·t … 1024·t + 1023` of each argument and writes the same rows of each result: the block's
  entry `(p, q)` sits in the array at `(1024·t + p, q)`.  What a point writes back is therefore the block of one function of
  the argument arrays — the doubled normalised first array, the normalised second array, the seed column —, and since the
  eight row blocks tile the 8192 rows, each result array ends holding that function everywhere.
-/
import proofs.«158616_j61976378081883_2_alg».proof.Proof.KI.FrameR0
import proofs.«158616_j61976378081883_2_alg».proof.Proof.PayPrep
import proofs.«158616_j61976378081883_2_alg».proof.Proof.Spec2
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Cert.KernelIdeal.PayIdx

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The index maps, decided over the eight grid points: every window's block index is `(t, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

theorem t_lt (t : Fin cfg0.N) : t.val < 8 := t.isLt.trans_eq N_0

/-- Row `p` of grid point `t`'s block is row `1024·t + p` of the array. -/
def row (t : Fin cfg0.N) (p : Fin 1024) : Fin 8192 := ⟨1024 * t.val + p.val, by have := t_lt t; have := p.isLt; omega⟩

/-- The grid point whose block holds row `r`. -/
def pt (r : Fin 8192) : Fin cfg0.N := ⟨r.val / 1024, by rw [show cfg0.N = 8 from N_0]; have := r.isLt; omega⟩

/-! ## The second result: the normalised second argument -/

theorem emb1 (t : Fin cfg0.N) (p : Fin 1024) (h : Fin 512) :
    ((cfg0.win 1).blk t).view.emb (ix2 p h) = (ix2 (row t p) h : S8192x512.Idx) := by
  obtain ⟨e0, e1⟩ := (idx_facts t).2.1
  funext a; apply Fin.ext
  match a with
  | ⟨0, _⟩ => show win0_1.index t (0 : Fin 2) * 1024 + 1 * p.val = 1024 * t.val + p.val; rw [e0]; omega
  | ⟨1, _⟩ => show win0_1.index t (1 : Fin 2) * 512 + 1 * h.val = h.val; rw [e1]; omega

theorem emb4 (t : Fin cfg0.N) (p : Fin 1024) (h : Fin 512) :
    ((cfg0.win 4).blk t).view.emb (ix2 p h) = (ix2 (row t p) h : S8192x512.Idx) := by
  obtain ⟨e0, e1⟩ := (idx_facts t).2.2.2.2.1
  funext a; apply Fin.ext
  match a with
  | ⟨0, _⟩ => show win0_4.index t (0 : Fin 2) * 1024 + 1 * p.val = 1024 * t.val + p.val; rw [e0]; omega
  | ⟨1, _⟩ => show win0_4.index t (1 : Fin 2) * 512 + 1 * h.val = h.val; rw [e1]; omega

/-- The second argument's block at grid point `t`, read at `(p, h)`. -/
theorem iblk1_at (t : Fin cfg0.N) (p : Fin 1024) (h : Fin 512) :
    iblk0 V c 1 t (ix2 p h) = V c main_arg1 (ix2 (row t p) h) := by
  unfold iblk0
  rw [View.read_apply]
  show V c main_arg1 (((cfg0.win 1).blk t).view.emb (ix2 p h)) = _
  rw [emb1]

/-- What grid point `t` writes back is its block of the normalised second argument. -/
theorem flushed4_eq (t : Fin cfg0.N) :
    (dat0 (F := Ideal) V c).flushed 4 t = ((cfg0.win 4).blk t).view.read (Elt Ideal) (Cert.Spec.Z2 (V c main_arg1)) := by
  show (cfg0.win 4).cut (grid0.coords t) ((dat0 V c).after 4 t) = _
  rw [after0_4]
  unfold out0_4
  rw [View.canon_unit_zero hz]
  simp only [View.ld_unit_zero (S := S1024x512) hz]
  refine funext fun (y : S1024x512.Idx) => ?_
  obtain ⟨p, q, rfl⟩ : ∃ (p : Fin 1024) (q : Fin 512), y = ix2 p q := ⟨y 0, y 1, eq_ix2 y⟩
  rw [View.read_apply]
  show k0_pay2 (F := Ideal) (iblk0 V c 1 t) (ix2 p q) = Cert.Spec.Z2 (V c main_arg1) (((cfg0.win 4).blk t).view.emb (ix2 p q))
  rw [emb4, Cert.Spec.Z2_apply]
  refine (pay2_apply _ p q).trans ?_
  simp only [iblk1_at]
  rfl

theorem mem_blk4 (t : Fin cfg0.N) (i : S8192x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v0_1).slice (win0_4.rect t)).set ↔ _
  rw [View.set_slice_whole, Rect.mem_set_unit]
  exact Iff.rfl

/-- Every index of the array is in the block of the grid point that holds its row, and every grid point writes back. -/
theorem cover4 (i : S8192x512.Idx) : ∃ t : Fin cfg0.N, (cfg0.win 4).flush t = true ∧ i ∈ ((cfg0.win 4).blk t).view.set := by
  have hi0 : (i 0).val < 8192 := (i 0).isLt
  have hi1 : (i 1).val < 512 := (i 1).isLt
  refine ⟨pt ⟨(i 0).val, hi0⟩, flush0_4 _, ?_⟩
  obtain ⟨e0, e1⟩ := (idx_facts (pt ⟨(i 0).val, hi0⟩)).2.2.2.2.1
  have ept : (pt ⟨(i 0).val, hi0⟩).val = (i 0).val / 1024 := rfl
  rw [mem_blk4]
  intro a
  match a with
  | ⟨0, _⟩ => show win0_4.index _ (0 : Fin 2) * 1024 ≤ (i 0).val ∧ (i 0).val < win0_4.index _ (0 : Fin 2) * 1024 + 1024; rw [e0, ept]; omega
  | ⟨1, _⟩ => show win0_4.index _ (1 : Fin 2) * 512 ≤ (i 1).val ∧ (i 1).val < win0_4.index _ (1 : Fin 2) * 512 + 512; rw [e1]; omega

/-- The second result array after the region: the normalised second argument. -/
theorem arr0_4 : (dat0 (F := Ideal) V c).arrAt 4 cfg0.N = Cert.Spec.Z2 (V c main_arg1) :=
  (dat0 (F := Ideal) V c).arrAt_eq_of_cover 4 (Cert.Spec.Z2 (V c main_arg1)) (fun t _ => flushed4_eq V c t) (cover4)

/-! ## The first result: the doubled normalised first argument -/

theorem emb0 (t : Fin cfg0.N) (p : Fin 1024) (h : Fin 512) :
    ((cfg0.win 0).blk t).view.emb (ix2 p h) = (ix2 (row t p) h : S8192x512.Idx) := by
  obtain ⟨e0, e1⟩ := (idx_facts t).1
  funext a; apply Fin.ext
  match a with
  | ⟨0, _⟩ => show win0_0.index t (0 : Fin 2) * 1024 + 1 * p.val = 1024 * t.val + p.val; rw [e0]; omega
  | ⟨1, _⟩ => show win0_0.index t (1 : Fin 2) * 512 + 1 * h.val = h.val; rw [e1]; omega

theorem emb3 (t : Fin cfg0.N) (p : Fin 1024) (h : Fin 512) :
    ((cfg0.win 3).blk t).view.emb (ix2 p h) = (ix2 (row t p) h : S8192x512.Idx) := by
  obtain ⟨e0, e1⟩ := (idx_facts t).2.2.2.1
  funext a; apply Fin.ext
  match a with
  | ⟨0, _⟩ => show win0_3.index t (0 : Fin 2) * 1024 + 1 * p.val = 1024 * t.val + p.val; rw [e0]; omega
  | ⟨1, _⟩ => show win0_3.index t (1 : Fin 2) * 512 + 1 * h.val = h.val; rw [e1]; omega

/-- The first argument's block at grid point `t`, read at `(p, h)`. -/
theorem iblk0_at (t : Fin cfg0.N) (p : Fin 1024) (h : Fin 512) :
    iblk0 V c 0 t (ix2 p h) = V c main_arg0 (ix2 (row t p) h) := by
  unfold iblk0
  rw [View.read_apply]
  show V c main_arg0 (((cfg0.win 0).blk t).view.emb (ix2 p h)) = _
  rw [emb0]

/-- What grid point `t` writes back is its block of the doubled normalised first argument. -/
theorem flushed3_eq (t : Fin cfg0.N) :
    (dat0 (F := Ideal) V c).flushed 3 t = ((cfg0.win 3).blk t).view.read (Elt Ideal) (Cert.Spec.Z1 (V c main_arg0)) := by
  show (cfg0.win 3).cut (grid0.coords t) ((dat0 V c).after 3 t) = _
  rw [after0_3]
  unfold out0_3
  rw [View.canon_unit_zero hz]
  simp only [View.ld_unit_zero (S := S1024x512) hz]
  refine funext fun (y : S1024x512.Idx) => ?_
  obtain ⟨p, q, rfl⟩ : ∃ (p : Fin 1024) (q : Fin 512), y = ix2 p q := ⟨y 0, y 1, eq_ix2 y⟩
  rw [View.read_apply]
  show k0_pay1 (F := Ideal) (iblk0 V c 0 t) (ix2 p q) = Cert.Spec.Z1 (V c main_arg0) (((cfg0.win 3).blk t).view.emb (ix2 p q))
  rw [emb3, Cert.Spec.Z1_apply]
  refine (pay1_apply _ p q).trans ?_
  simp only [iblk0_at]
  rfl

theorem mem_blk3 (t : Fin cfg0.N) (i : S8192x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v0_0).slice (win0_3.rect t)).set ↔ _
  rw [View.set_slice_whole, Rect.mem_set_unit]
  exact Iff.rfl

/-- Every index of the array is in the block of the grid point that holds its row, and every grid point writes back. -/
theorem cover3 (i : S8192x512.Idx) : ∃ t : Fin cfg0.N, (cfg0.win 3).flush t = true ∧ i ∈ ((cfg0.win 3).blk t).view.set := by
  have hi0 : (i 0).val < 8192 := (i 0).isLt
  have hi1 : (i 1).val < 512 := (i 1).isLt
  refine ⟨pt ⟨(i 0).val, hi0⟩, flush0_3 _, ?_⟩
  obtain ⟨e0, e1⟩ := (idx_facts (pt ⟨(i 0).val, hi0⟩)).2.2.2.1
  have ept : (pt ⟨(i 0).val, hi0⟩).val = (i 0).val / 1024 := rfl
  rw [mem_blk3]
  intro a
  match a with
  | ⟨0, _⟩ => show win0_3.index _ (0 : Fin 2) * 1024 ≤ (i 0).val ∧ (i 0).val < win0_3.index _ (0 : Fin 2) * 1024 + 1024; rw [e0, ept]; omega
  | ⟨1, _⟩ => show win0_3.index _ (1 : Fin 2) * 512 ≤ (i 1).val ∧ (i 1).val < win0_3.index _ (1 : Fin 2) * 512 + 512; rw [e1]; omega

/-- The first result array after the region: the doubled normalised first argument. -/
theorem arr0_3 : (dat0 (F := Ideal) V c).arrAt 3 cfg0.N = Cert.Spec.Z1 (V c main_arg0) :=
  (dat0 (F := Ideal) V c).arrAt_eq_of_cover 3 (Cert.Spec.Z1 (V c main_arg0)) (fun t _ => flushed3_eq V c t) (cover3)

/-! ## The third result: the seed column -/

theorem emb2 (t : Fin cfg0.N) (p : Fin 1024) (h : Fin 512) :
    ((cfg0.win 2).blk t).view.emb (ix2 p h) = (ix2 (row t p) h : S8192x512.Idx) := by
  obtain ⟨e0, e1⟩ := (idx_facts t).2.2.1
  funext a; apply Fin.ext
  match a with
  | ⟨0, _⟩ => show win0_2.index t (0 : Fin 2) * 1024 + 1 * p.val = 1024 * t.val + p.val; rw [e0]; omega
  | ⟨1, _⟩ => show win0_2.index t (1 : Fin 2) * 512 + 1 * h.val = h.val; rw [e1]; omega

theorem emb5 (t : Fin cfg0.N) (p : Fin 1024) (h : Fin 1) :
    ((cfg0.win 5).blk t).view.emb (ix2 p h) = (ix2 (row t p) h : S8192x1.Idx) := by
  obtain ⟨e0, e1⟩ := (idx_facts t).2.2.2.2.2
  funext a; apply Fin.ext
  match a with
  | ⟨0, _⟩ => show win0_5.index t (0 : Fin 2) * 1024 + 1 * p.val = 1024 * t.val + p.val; rw [e0]; omega
  | ⟨1, _⟩ => show win0_5.index t (1 : Fin 2) * 1 + 1 * h.val = h.val; rw [e1]; omega

/-- The third argument's block at grid point `t`, read at `(p, h)`. -/
theorem iblk2_at (t : Fin cfg0.N) (p : Fin 1024) (h : Fin 512) :
    iblk0 V c 2 t (ix2 p h) = V c main_arg2 (ix2 (row t p) h) := by
  unfold iblk0
  rw [View.read_apply]
  show V c main_arg2 (((cfg0.win 2).blk t).view.emb (ix2 p h)) = _
  rw [emb2]

/-- What grid point `t` writes back is its block of the seed column. -/
theorem flushed5_eq (t : Fin cfg0.N) :
    (dat0 (F := Ideal) V c).flushed 5 t = ((cfg0.win 5).blk t).view.read (Elt Ideal) (Cert.Spec.NTS (V c main_arg2) (V c main_arg0)) := by
  show (cfg0.win 5).cut (grid0.coords t) ((dat0 V c).after 5 t) = _
  rw [after0_5]
  unfold out0_5
  rw [View.canon_unit_zero hz]
  simp only [View.ld_unit_zero (S := S1024x512) hz]
  refine funext fun (y : S1024x1.Idx) => ?_
  obtain ⟨p, z, rfl⟩ : ∃ (p : Fin 1024) (z : Fin 1), y = ix2 p z := ⟨y 0, y 1, eq_ix2 y⟩
  obtain rfl : z = 0 := Subsingleton.elim _ _
  rw [View.read_apply]
  show k0_pay3 (F := Ideal) (iblk0 V c 0 t) (iblk0 V c 2 t) (ix2 p (0 : Fin 1)) = Cert.Spec.NTS (V c main_arg2) (V c main_arg0) (((cfg0.win 5).blk t).view.emb (ix2 p (0 : Fin 1)))
  rw [emb5, Cert.Spec.NTS_apply]
  refine (pay3_apply _ _ p).trans ?_
  simp only [iblk0_at, iblk2_at]
  rfl

theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v0_2).slice (win0_5.rect t)).set ↔ _
  rw [View.set_slice_whole, Rect.mem_set_unit]
  exact Iff.rfl

/-- Every index of the array is in the block of the grid point that holds its row, and every grid point writes back. -/
theorem cover5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  refine ⟨pt ⟨(i 0).val, hi0⟩, flush0_5 _, ?_⟩
  obtain ⟨e0, e1⟩ := (idx_facts (pt ⟨(i 0).val, hi0⟩)).2.2.2.2.2
  have ept : (pt ⟨(i 0).val, hi0⟩).val = (i 0).val / 1024 := rfl
  rw [mem_blk5]
  intro a
  match a with
  | ⟨0, _⟩ => show win0_5.index _ (0 : Fin 2) * 1024 ≤ (i 0).val ∧ (i 0).val < win0_5.index _ (0 : Fin 2) * 1024 + 1024; rw [e0, ept]; omega
  | ⟨1, _⟩ => show win0_5.index _ (1 : Fin 2) * 1 ≤ (i 1).val ∧ (i 1).val < win0_5.index _ (1 : Fin 2) * 1 + 1; rw [e1]; omega

/-- The third result array after the region: the seed column. -/
theorem arr0_5 : (dat0 (F := Ideal) V c).arrAt 5 cfg0.N = Cert.Spec.NTS (V c main_arg2) (V c main_arg0) :=
  (dat0 (F := Ideal) V c).arrAt_eq_of_cover 5 (Cert.Spec.NTS (V c main_arg2) (V c main_arg0)) (fun t _ => flushed5_eq V c t) (cover5)

end Cert.KernelIdeal.Val

end
-- ==== Proof.KI.PieceR1.lean ====
/-
  What each control case of the second kernel leaves in the two accumulators and in the output block, as the body's
  arithmetic of the point's input blocks (and, after the first column tile, of what the accumulators held before):
  the seed block goes into both accumulators at the first column tile; every point adds the tile's weighted and
  unweighted row sums of the exponentials; the last column tile turns the two accumulators into the row losses.
-/
import proofs.«158616_j61976378081883_2_alg».proof.Proof.KI.FrameR1
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The slice of the resident second factor the body loads at point `t`: the 1024 rows of column tile `t % 8`. -/
abbrev LD1 (t : Fin cfg1.N) (x1 : Vec F S8192x512 .bf16) : Vec F S1024x512 .bf16 :=
  View.ld x1 (Rect.unit (s := S8192x512) (k1_off1 (grid1.coords t)) S1024x512.size (k1_off1_inb (grid1.coords t)))

theorem hzW : (![0, 0] : Fin S1024x512.rank → Nat) = fun _ => 0 := by funext a; match a with | ⟨0, _⟩ => rfl | ⟨1, _⟩ => rfl
theorem hzC : (![0, 0] : Fin S1024x1.rank → Nat) = fun _ => 0 := by funext a; match a with | ⟨0, _⟩ => rfl | ⟨1, _⟩ => rfl
theorem hzG : (![0, 0] : Fin S1024x1024.rank → Nat) = fun _ => 0 := by funext a; match a with | ⟨0, _⟩ => rfl | ⟨1, _⟩ => rfl

theorem rd_s0 (h : (scM1_0 : Memref sig .tc .vmem S1024x1 .f32).IsWhole) (X : Vec F S1024x1 .f32) :
    View.read (Elt F) (View.whole cc1_scratch0) (h.unread X) = X := h.read_unread X
theorem rd_s1 (h : (scM1_1 : Memref sig .tc .vmem S1024x1 .f32).IsWhole) (X : Vec F S1024x1 .f32) :
    View.read (Elt F) (View.whole cc1_scratch1) (h.unread X) = X := h.read_unread X

theorem caseA_s0 (c : Dev nD) (t : Fin cfg1.N) (h0 : t.val % 8 = 0) (h1 : ¬t.val % 8 = 7) :
    (caseA V c t h0 h1).2.1 = k1_pay4 (iblk1 V c 0 t) (LD1 t (iblk1 V c 1 t)) (iblk1 V c 3 t) (k1_pay1 (iblk1 V c 2 t)) := by
  unfold caseA; dsimp only
  rw [View.read_writes_eq_canon _ _ _ (scoverA_0 c t h0 h1 _ _ _ _)]
  unfold runA kernelRun1_A; dsimp only
  sl_unfold_words
  rw [View.canon_cons_unit_zero hzC, View.readCov_unit_zero _ hzC]
  simp only [View.readAt_eq_ld, Memref.IsWhole.read_unread, rd_s0, rd_s1, View.ld_unit_zero (S := S1024x512) hzW,
    View.ld_unit_zero (S := S1024x1) hzC, View.ld_unit_zero (S := S1024x1024) hzG]
  rfl
theorem caseA_s1 (c : Dev nD) (t : Fin cfg1.N) (h0 : t.val % 8 = 0) (h1 : ¬t.val % 8 = 7) :
    (caseA V c t h0 h1).2.2 = k1_pay5 (iblk1 V c 0 t) (LD1 t (iblk1 V c 1 t)) (k1_pay2 (iblk1 V c 2 t)) := by
  unfold caseA; dsimp only
  rw [View.read_writes_eq_canon _ _ _ (scoverA_1 c t h0 h1 _ _ _ _)]
  unfold runA kernelRun1_A; dsimp only
  sl_unfold_words
  rw [View.canon_cons_unit_zero hzC, View.readCov_unit_zero _ hzC]
  simp only [View.readAt_eq_ld, Memref.IsWhole.read_unread, rd_s0, rd_s1, View.ld_unit_zero (S := S1024x512) hzW,
    View.ld_unit_zero (S := S1024x1) hzC, View.ld_unit_zero (S := S1024x1024) hzG]
  rfl
theorem caseB_s0 (c : Dev nD) (t : Fin cfg1.N) (h0 : ¬t.val % 8 = 0) (h1 : ¬t.val % 8 = 7) (xs0 xs1 : Vec F S1024x1 .f32) :
    (caseB V c t h0 h1 xs0 xs1).2.1 = k1_pay4 (iblk1 V c 0 t) (LD1 t (iblk1 V c 1 t)) (iblk1 V c 3 t) xs0 := by
  unfold caseB; dsimp only
  rw [View.read_writes_eq_canon _ _ _ (scoverB_0 c t h0 h1 _ _ _ _ _ _)]
  unfold runB kernelRun1_B; dsimp only
  sl_unfold_words
  rw [View.canon_cons_unit_zero hzC]
  simp only [View.readAt_eq_ld, Memref.IsWhole.read_unread, rd_s0, rd_s1, View.ld_unit_zero (S := S1024x512) hzW,
    View.ld_unit_zero (S := S1024x1) hzC, View.ld_unit_zero (S := S1024x1024) hzG]
  rfl
theorem caseB_s1 (c : Dev nD) (t : Fin cfg1.N) (h0 : ¬t.val % 8 = 0) (h1 : ¬t.val % 8 = 7) (xs0 xs1 : Vec F S1024x1 .f32) :
    (caseB V c t h0 h1 xs0 xs1).2.2 = k1_pay5 (iblk1 V c 0 t) (LD1 t (iblk1 V c 1 t)) xs1 := by
  unfold caseB; dsimp only
  rw [View.read_writes_eq_canon _ _ _ (scoverB_1 c t h0 h1 _ _ _ _ _ _)]
  unfold runB kernelRun1_B; dsimp only
  sl_unfold_words
  rw [View.canon_cons_unit_zero hzC]
  simp only [View.readAt_eq_ld, Memref.IsWhole.read_unread, rd_s0, rd_s1, View.ld_unit_zero (S := S1024x512) hzW,
    View.ld_unit_zero (S := S1024x1) hzC, View.ld_unit_zero (S := S1024x1024) hzG]
  rfl
theorem caseC_s0 (c : Dev nD) (t : Fin cfg1.N) (h0 : ¬t.val % 8 = 0) (h1 : t.val % 8 = 7) (xs0 xs1 : Vec F S1024x1 .f32) :
    (caseC V c t h0 h1 xs0 xs1).2.1 = k1_pay4 (iblk1 V c 0 t) (LD1 t (iblk1 V c 1 t)) (iblk1 V c 3 t) xs0 := by
  unfold caseC; dsimp only
  rw [View.read_writes_eq_canon _ _ _ (scoverC_0 c t h0 h1 _ _ _ _ _ _)]
  unfold runC kernelRun1_C; dsimp only
  sl_unfold_words
  rw [View.canon_cons_unit_zero hzC]
  simp only [View.readAt_eq_ld, Memref.IsWhole.read_unread, rd_s0, rd_s1, View.ld_unit_zero (S := S1024x512) hzW,
    View.ld_unit_zero (S := S1024x1) hzC, View.ld_unit_zero (S := S1024x1024) hzG]
  rfl
theorem caseC_s1 (c : Dev nD) (t : Fin cfg1.N) (h0 : ¬t.val % 8 = 0) (h1 : t.val % 8 = 7) (xs0 xs1 : Vec F S1024x1 .f32) :
    (caseC V c t h0 h1 xs0 xs1).2.2 = k1_pay5 (iblk1 V c 0 t) (LD1 t (iblk1 V c 1 t)) xs1 := by
  unfold caseC; dsimp only
  rw [View.read_writes_eq_canon _ _ _ (scoverC_1 c t h0 h1 _ _ _ _ _ _)]
  unfold runC kernelRun1_C; dsimp only
  sl_unfold_words
  rw [View.canon_cons_unit_zero hzC]
  simp only [View.readAt_eq_ld, Memref.IsWhole.read_unread, rd_s0, rd_s1, View.ld_unit_zero (S := S1024x512) hzW,
    View.ld_unit_zero (S := S1024x1) hzC, View.ld_unit_zero (S := S1024x1024) hzG]
  rfl
theorem caseC_out (c : Dev nD) (t : Fin cfg1.N) (h0 : ¬t.val % 8 = 0) (h1 : t.val % 8 = 7) (xs0 xs1 : Vec F S1024x1 .f32) :
    (caseC V c t h0 h1 xs0 xs1).1 = k1_pay6 (k1_pay4 (iblk1 V c 0 t) (LD1 t (iblk1 V c 1 t)) (iblk1 V c 3 t) xs0)
      (k1_pay5 (iblk1 V c 0 t) (LD1 t (iblk1 V c 1 t)) xs1) := by
  unfold caseC; dsimp only
  rw [View.read_writes_eq_canon _ _ _ (coverC_4 c t h0 h1 _ _ _ _ _ _)]
  unfold runC kernelRun1_C; dsimp only
  sl_unfold_words
  rw [View.canon_cons_unit_zero hzC, View.readCov_unit_zero _ hzC, View.readCov_unit_zero _ hzC]
  simp only [View.readAt_eq_ld, Memref.IsWhole.read_unread, rd_s0, rd_s1, View.ld_unit_zero (S := S1024x512) hzW,
    View.ld_unit_zero (S := S1024x1) hzC, View.ld_unit_zero (S := S1024x1024) hzG]
  rfl

end Cert.KernelIdeal.Fr

end
-- ==== Proof.KI.BlkR1.lean ====
/-
  The second tiled computation's input blocks read at an index off their arrays. At grid position `t = 8·i + j` the
  first, third and fourth windows hold rows `i·1024 + p` of their arrays (the fourth also columns `j·1024 + l`), the
  second holds its whole array, and the body's slice of that resident array holds its rows `j·1024 + l`. Each block
  index is decided once over the 64 positions; an element of a block sits at block index × block size + its own
  coordinate.
-/
import proofs.«158616_j61976378081883_2_alg».proof.Proof.KI.FrameR1Defs
import proofs.«158616_j61976378081883_2_alg».proof.Proof.Spec
import Idealize.ShloMosaic.Lib.Pipeline.Value
import Idealize.ShloMosaic.Lib.ValueIdx

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem

/-- The row-tile coordinate of a grid position. -/
def ti (t : Fin cfg1.N) : Fin 8 := ⟨t.val / 8, by have := lt_of_lt_of_eq t.isLt (show cfg1.N = 64 from N_1); omega⟩
/-- The column-tile coordinate of a grid position. -/
def tj (t : Fin cfg1.N) : Fin 8 := ⟨t.val % 8, Nat.mod_lt _ (by decide)⟩

/-- The first window's block index at position `t`: row tile `t / 8`, column `0`. -/
theorem idx1_0 : ∀ t : Fin cfg1.N, win1_0.index t (0 : Fin 2) = t.val / 8 ∧ win1_0.index t (1 : Fin 2) = 0 :=
  (by decide +kernel : ∀ t : Fin grid1.N, win1_0.index t (0 : Fin 2) = t.val / 8 ∧ win1_0.index t (1 : Fin 2) = 0)

/-- The resident window's block index: always `(0, 0)`. -/
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
/-- The seed window's block index: row tile `t / 8`, column `0`. -/
theorem idx1_2 : ∀ t : Fin cfg1.N, win1_2.index t (0 : Fin 2) = t.val / 8 ∧ win1_2.index t (1 : Fin 2) = 0 :=
  (by decide +kernel : ∀ t : Fin grid1.N, win1_2.index t (0 : Fin 2) = t.val / 8 ∧ win1_2.index t (1 : Fin 2) = 0)
/-- The weight window's block index: row tile `t / 8`, column tile `t % 8`. -/
theorem idx1_3 : ∀ t : Fin cfg1.N, win1_3.index t (0 : Fin 2) = t.val / 8 ∧ win1_3.index t (1 : Fin 2) = t.val % 8 :=
  (by decide +kernel : ∀ t : Fin grid1.N, win1_3.index t (0 : Fin 2) = t.val / 8 ∧ win1_3.index t (1 : Fin 2) = t.val % 8)
/-- The offsets of the body's slice of the resident array: row `(t % 8) · 1024`, column `0`. -/
theorem off1 : ∀ t : Fin cfg1.N, k1_off1 (grid1.coords t) (0 : Fin 2) = (t.val % 8) * 1024 ∧ k1_off1 (grid1.coords t) (1 : Fin 2) = 0 :=
  (by decide +kernel : ∀ t : Fin grid1.N, k1_off1 (grid1.coords t) (0 : Fin 2) = (t.val % 8) * 1024 ∧ k1_off1 (grid1.coords t) (1 : Fin 2) = 0)

variable (V : (c : Dev nD) → (b : Ref sig .tc) → Buf (Elt Ideal) ((c : Thread nD τ).loc b)) (c : Dev nD)

/-- The first window's block at `(p, h)`: row `i·1024 + p` of its array. -/
theorem iblk1_0 (t : Fin cfg1.N) (p : Fin 1024) (h : Fin 512) :
    iblk1 (F := Ideal) V c 0 t (ix2 p h) = V c main_v0_0 (ix2 (Cert.Spec.col (ti t) p) h) := by
  obtain ⟨e0, e1⟩ := idx1_0 t
  unfold iblk1
  rw [View.read_apply]
  show V c main_v0_0 (((cfg1.win 0).blk t).view.emb (ix2 p h)) = _
  refine congrArg (V c main_v0_0) (funext fun a => Fin.ext ?_)
  match a with
  | ⟨0, _⟩ => show win1_0.index t (0 : Fin 2) * 1024 + 1 * p.val = (t.val / 8) * 1024 + p.val; rw [e0]; omega
  | ⟨1, _⟩ => show win1_0.index t (1 : Fin 2) * 512 + 1 * h.val = h.val; rw [e1]; omega

/-- The resident window's block is its whole array. -/
theorem iblk1_1 (t : Fin cfg1.N) (r : Fin 8192) (h : Fin 512) :
    iblk1 (F := Ideal) V c 1 t (ix2 r h) = V c main_v0_1 (ix2 r h) := by
  obtain ⟨e0, e1⟩ := idx1_1 t
  unfold iblk1
  rw [View.read_apply]
  show V c main_v0_1 (((cfg1.win 1).blk t).view.emb (ix2 r h)) = _
  refine congrArg (V c main_v0_1) (funext fun a => Fin.ext ?_)
  match a with
  | ⟨0, _⟩ => show win1_1.index t (0 : Fin 2) * 8192 + 1 * r.val = r.val; rw [e0]; omega
  | ⟨1, _⟩ => show win1_1.index t (1 : Fin 2) * 512 + 1 * h.val = h.val; rw [e1]; omega

/-- The seed window's block at `(p, z)`: row `i·1024 + p` of the seed column. -/
theorem iblk1_2 (t : Fin cfg1.N) (p : Fin 1024) (z : Fin 1) :
    iblk1 (F := Ideal) V c 2 t (ix2 p z) = V c main_v0_2 (ix2 (Cert.Spec.col (ti t) p) z) := by
  obtain ⟨e0, e1⟩ := idx1_2 t
  unfold iblk1
  rw [View.read_apply]
  show V c main_v0_2 (((cfg1.win 2).blk t).view.emb (ix2 p z)) = _
  refine congrArg (V c main_v0_2) (funext fun a => Fin.ext ?_)
  match a with
  | ⟨0, _⟩ => show win1_2.index t (0 : Fin 2) * 1024 + 1 * p.val = (t.val / 8) * 1024 + p.val; rw [e0]; omega
  | ⟨1, _⟩ => show win1_2.index t (1 : Fin 2) * 1 + 1 * z.val = z.val; rw [e1]; omega

/-- The weight window's block at `(p, l)`: row `i·1024 + p`, column `j·1024 + l` of the weights. -/
theorem iblk1_3 (t : Fin cfg1.N) (p l : Fin 1024) :
    iblk1 (F := Ideal) V c 3 t (ix2 p l) = V c main_arg3 (ix2 (Cert.Spec.col (ti t) p) (Cert.Spec.col (tj t) l)) := by
  obtain ⟨e0, e1⟩ := idx1_3 t
  unfold iblk1
  rw [View.read_apply]
  show V c main_arg3 (((cfg1.win 3).blk t).view.emb (ix2 p l)) = _
  refine congrArg (V c main_arg3) (funext fun a => Fin.ext ?_)
  match a with
  | ⟨0, _⟩ => show win1_3.index t (0 : Fin 2) * 1024 + 1 * p.val = (t.val / 8) * 1024 + p.val; rw [e0]; omega
  | ⟨1, _⟩ => show win1_3.index t (1 : Fin 2) * 1024 + 1 * l.val = (t.val % 8) * 1024 + l.val; rw [e1]; omega

omit V c in
/-- The body's slice of the resident array at `(l, h)`: row `j·1024 + l`. -/
theorem ld1 (t : Fin cfg1.N) (x1 : Vec Ideal S8192x512 .bf16) (l : Fin 1024) (h : Fin 512) :
    View.ld x1 (Rect.unit (s := S8192x512) (k1_off1 (grid1.coords t)) S1024x512.size (k1_off1_inb (grid1.coords t))) (ix2 l h) = x1 (ix2 (Cert.Spec.col (tj t) l) h) := by
  obtain ⟨e0, e1⟩ := off1 t
  show x1 ((Rect.unit (s := S8192x512) (k1_off1 (grid1.coords t)) S1024x512.size (k1_off1_inb (grid1.coords t))).idx (ix2 l h)) = _
  refine congrArg x1 (funext fun a => Fin.ext ?_)
  match a with
  | ⟨0, _⟩ => show k1_off1 (grid1.coords t) (0 : Fin 2) + 1 * l.val = (t.val % 8) * 1024 + l.val; rw [e0]; omega
  | ⟨1, _⟩ => show k1_off1 (grid1.coords t) (1 : Fin 2) + 1 * h.val = h.val; rw [e1]; omega

end Cert.KernelIdeal.Val

end
-- ==== Proof.PayMain.lean ====
/-
  The second kernel's six stored values read at an index, over extended reals. The two resets copy the seed column; the
  tile of exponentials at `(p, l)` is the exponential of the inner product of row `p` of the first block with row `l`
  of the second (the product is taken against the second block transposed, into a zero accumulator); the two running
  row sums add the tile's row sum, with and without the weights, onto what they held; the last value is zero minus the
  logarithm of the quotient of the two sums, the second raised by a small positive literal. Index lemmas first: the sum
  along the second axis of a matrix, the cast of a vector to a column, and the matrix product at an index.
-/
import proofs.«158616_j61976378081883_2_alg».proof.Proof.Gen.KernelIdeal.Skeleton
import proofs.«158616_j61976378081883_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayIdx

open Idealize.ShloMosaic Idealize.ShloMosaic.ValueIdx Cert.KernelIdeal Cert.KernelIdeal.Gen

variable {α : Type}

/-- The sum of a matrix along its second axis, read at row `p`: the sum of the row's entries. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => match c with
      | ⟨0, _⟩ => Fin.ext rfl
      | ⟨1, _⟩ => Fin.ext rfl))

/-- An `[a]` array cast to the column `[a, 1]` reads, at `(i, u)`, the operand at `i`. -/
theorem colCast_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The left operand's index at output `(p, l)` and contraction position `k`: row `p`, … -/
theorem lhsIdx_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
/-- … column `k`. -/
theorem lhsIdx_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
/-- The right operand's index: row `k`, … -/
theorem rhsIdx_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
/-- … column `l`. -/
theorem rhsIdx_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The matrix product into the zero accumulator, read at `(p, l)`: the sum over `h` of the products. -/
theorem matmul_zero_apply (lhs : FVec Ideal S1024x512 .bf16) (rhs : FVec Ideal S512x1024 .bf16) (p l : Fin 1024) :
    matmul (F := Ideal) dot_S1024x512_S512x1024_S1024x1024_1_0_0_1_n_n none lhs rhs (constant S1024x1024 .f32 0x00000000#32) (ix2 p l)
      = ∑ h : Fin 512, lhs (ix2 p h) * rhs (ix2 h l) := by
  refine (Ideal.matmul_constant_zero_apply dot_S1024x512_S512x1024_S1024x1024_1_0_0_1_n_n none lhs rhs (ix2 p l)).trans ?_
  rw [← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p l)
      ((contrEquiv1 dot_S1024x512_S512x1024_S1024x1024_1_0_0_1_n_n 512 rfl rfl).symm k) = ix2 p k := funext fun a => Fin.ext (by
    match a with
    | ⟨0, _⟩ => exact lhsIdx_0 _ _
    | ⟨1, _⟩ => exact (lhsIdx_1 _ _).trans hk)
  have er : dot_S1024x512_S512x1024_S1024x1024_1_0_0_1_n_n.rhsIdx (ix2 p l)
      ((contrEquiv1 dot_S1024x512_S512x1024_S1024x1024_1_0_0_1_n_n 512 rfl rfl).symm k) = ix2 k l := funext fun a => Fin.ext (by
    match a with
    | ⟨0, _⟩ => exact (rhsIdx_0 _ _).trans hk
    | ⟨1, _⟩ => exact rhsIdx_1 _ _)
  rw [el, er]

/-- The first reset copies its operand (two casts to the same shape). -/
theorem main_pay1_apply (v : FVec Ideal S1024x1 .f32) (i : S1024x1.Idx) : k1_pay1 (F := Ideal) v i = v i := by
  unfold k1_pay1
  exact congrFun ((shapeCast_self _ _).trans (shapeCast_self _ _)) i

/-- The second reset likewise. -/
theorem main_pay2_apply (v : FVec Ideal S1024x1 .f32) (i : S1024x1.Idx) : k1_pay2 (F := Ideal) v i = v i := by
  unfold k1_pay2
  exact congrFun ((shapeCast_self _ _).trans (shapeCast_self _ _)) i

/-- The row loss: zero minus the logarithm of the first sum over the second sum raised by the small literal. -/
theorem main_pay6_apply (v32 v33 : FVec Ideal S1024x1 .f32) (p : Fin 1024) :
    k1_pay6 (F := Ideal) v32 v33 (ix2 p (0 : Fin 1)) = Cert.Spec.zero - Ideal.log (Ideal.div (v32 (ix2 p (0 : Fin 1))) (v33 (ix2 p (0 : Fin 1)) + Cert.Spec.epsDen)) := by
  unfold k1_pay6
  rfl

/-- The tile of exponentials at `(p, l)`: the exponential of the inner product of row `p` with row `l`. -/
theorem main_pay3_apply (v3 v8 : FVec Ideal S1024x512 .bf16) (p l : Fin 1024) :
    k1_pay3 (F := Ideal) v3 v8 (ix2 p l) = Ideal.exp (∑ h : Fin 512, v3 (ix2 p h) * v8 (ix2 l h)) := by
  unfold k1_pay3
  show Ideal.exp (matmul (F := Ideal) dot_S1024x512_S512x1024_S1024x1024_1_0_0_1_n_n none (shapeCast S1024x512 v3 _)
    (transpose S512x1024 [1, 0] (shapeCast S1024x512 v8 _) _) (constant S1024x1024 .f32 0x00000000#32) (ix2 p l)) = _
  refine congrArg Ideal.exp ?_
  refine (matmul_zero_apply _ _ p l).trans ?_
  refine Finset.sum_congr rfl fun h _ => ?_
  rw [shapeCast_self, shapeCast_self]
  exact congrArg (v3 (ix2 p h) * ·) (transpose_ix2_apply v8 _ h l)

/-- The unweighted running sum: what it held plus the tile's row sum. -/
theorem main_pay5_apply (v3 v8 : FVec Ideal S1024x512 .bf16) (v22 : FVec Ideal S1024x1 .f32) (p : Fin 1024) :
    k1_pay5 (F := Ideal) v3 v8 v22 (ix2 p (0 : Fin 1)) = v22 (ix2 p (0 : Fin 1)) + ∑ l : Fin 1024, Ideal.exp (∑ h : Fin 512, v3 (ix2 p h) * v8 (ix2 l h)) := by
  unfold k1_pay5
  show shapeCast S1024x1 _ _ (ix2 p (0 : Fin 1)) = _
  refine (congrFun (shapeCast_self _ _) _).trans ?_
  show v22 (ix2 p (0 : Fin 1)) + shapeCast S1024x1 _ _ (ix2 p (0 : Fin 1)) = _
  refine congrArg (v22 (ix2 p (0 : Fin 1)) + ·) ?_
  refine (colCast_apply _ _ p 0).trans ?_
  refine (rowSum_apply _ _ _ _ p).trans ?_
  exact Finset.sum_congr rfl fun l _ => main_pay3_apply v3 v8 p l

/-- The weighted running sum: what it held plus the tile's weighted row sum. -/
theorem main_pay4_apply (v3 v8 : FVec Ideal S1024x512 .bf16) (v13 : FVec Ideal S1024x1024 .f32) (v14 : FVec Ideal S1024x1 .f32) (p : Fin 1024) :
    k1_pay4 (F := Ideal) v3 v8 v13 v14 (ix2 p (0 : Fin 1)) = v14 (ix2 p (0 : Fin 1)) + ∑ l : Fin 1024, Ideal.exp (∑ h : Fin 512, v3 (ix2 p h) * v8 (ix2 l h)) * v13 (ix2 p l) := by
  unfold k1_pay4
  show shapeCast S1024x1 _ _ (ix2 p (0 : Fin 1)) = _
  refine (congrFun (shapeCast_self _ _) _).trans ?_
  show v14 (ix2 p (0 : Fin 1)) + shapeCast S1024x1 _ _ (ix2 p (0 : Fin 1)) = _
  refine congrArg (v14 (ix2 p (0 : Fin 1)) + ·) ?_
  refine (colCast_apply _ _ p 0).trans ?_
  refine (rowSum_apply _ _ _ _ p).trans ?_
  refine Finset.sum_congr rfl fun l _ => ?_
  show k1_pay3 (F := Ideal) v3 v8 (ix2 p l) * v13 (ix2 p l) = _
  exact congrArg (· * v13 (ix2 p l)) (main_pay3_apply v3 v8 p l)

end Cert.KernelIdeal.PayIdx

end
-- ==== Proof.KI.ValR1.lean ====
/-
  The second tiled computation's two running row sums after each grid position, and the row losses its last column tile
  leaves, over extended reals.  Position `t = 8·i + j` adds column tile `j`'s weighted and unweighted row sums of
  `exp (Σ_h A[i·1024 + p, h] · B[j·1024 + l, h])` onto what the two accumulators held (the seed at `j = 0`); so after
  position `t` row `p` of each accumulator is the seed with the first `j + 1` tile sums added left to right, and at
  `j = 7` the output block's row `p` is the tiled row loss of row `i·1024 + p`.
-/
import proofs.«158616_j61976378081883_2_alg».proof.Proof.KI.FrameR1
import proofs.«158616_j61976378081883_2_alg».proof.Proof.KI.PieceR1
import proofs.«158616_j61976378081883_2_alg».proof.Proof.KI.BlkR1
import proofs.«158616_j61976378081883_2_alg».proof.Proof.PayMain
import proofs.«158616_j61976378081883_2_alg».proof.Proof.Spec2
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr Cert.KernelIdeal.PayIdx Idealize.ShloMosaic
open Idealize.ShloMosaic.TcCoe Idealize.SL.Sem Idealize.ShloMosaic.ValueIdx

variable (V : (c : Dev nD) → (b : Ref sig .tc) → Buf (Elt Ideal) ((c : Thread nD τ).loc b)) (c : Dev nD)

/-- One more tile sum onto the left-to-right accumulation, at the column tile of position `t`. -/
theorem r1_accN_step (f : Fin 8 → EReal) (a0 : EReal) (t : Fin cfg1.N) :
    Cert.Spec.accN f a0 (t.val % 8 + 1) = Cert.Spec.accN f a0 (t.val % 8) + f (tj t) := by
  have hk : t.val % 8 < 8 := Nat.mod_lt _ (by decide)
  show Cert.Spec.accN f a0 (t.val % 8) + (if h : t.val % 8 < 8 then f ⟨t.val % 8, h⟩ else 0) = _
  rw [dif_pos hk]
  rfl

/-- The exponential the body forms at position `t` for row `p` of its row tile and column `l` of its column tile. -/
theorem r1_exp_at (t : Fin cfg1.N) (p l : Fin 1024) (v3 v8 : FVec Ideal S1024x512 .bf16)
    (e3 : v3 = iblk1 (F := Ideal) V c 0 t) (e8 : v8 = LD1 t (iblk1 (F := Ideal) V c 1 t)) :
    Ideal.exp (∑ h : Fin 512, v3 (ix2 p h) * v8 (ix2 l h))
      = Cert.Spec.tExp (V c main_v0_0) (V c main_v0_1) (Cert.Spec.col (ti t) p) (Cert.Spec.col (tj t) l) := by
  subst e3; subst e8
  unfold Cert.Spec.tExp
  refine congrArg Ideal.exp (Finset.sum_congr rfl fun h _ => ?_)
  exact congrArg₂ (fun x y : EReal => x * y) (iblk1_0 V c t p h) ((ld1 t _ l h).trans (iblk1_1 V c t _ h))

/-- The weighted accumulator's new value at row `p`: what it held plus the tile's weighted row sum. -/
theorem r1_step_num (t : Fin cfg1.N) (p : Fin 1024) (xs0 : FVec Ideal S1024x1 .f32) :
    k1_pay4 (F := Ideal) (iblk1 V c 0 t) (LD1 t (iblk1 V c 1 t)) (iblk1 V c 3 t) xs0 (ix2 p (0 : Fin 1))
      = xs0 (ix2 p (0 : Fin 1))
        + Cert.Spec.tNum (V c main_v0_0) (V c main_v0_1) (V c main_arg3) (Cert.Spec.col (ti t) p) (tj t) := by
  refine (main_pay4_apply _ _ _ _ p).trans ?_
  refine congrArg (xs0 (ix2 p (0 : Fin 1)) + ·) ?_
  unfold Cert.Spec.tNum
  refine Finset.sum_congr rfl fun l _ => ?_
  exact congrArg₂ (fun x y : EReal => x * y) (r1_exp_at V c t p l _ _ rfl rfl) (iblk1_3 V c t p l)

/-- The unweighted accumulator's new value at row `p`: what it held plus the tile's row sum. -/
theorem r1_step_den (t : Fin cfg1.N) (p : Fin 1024) (xs1 : FVec Ideal S1024x1 .f32) :
    k1_pay5 (F := Ideal) (iblk1 V c 0 t) (LD1 t (iblk1 V c 1 t)) xs1 (ix2 p (0 : Fin 1))
      = xs1 (ix2 p (0 : Fin 1))
        + Cert.Spec.tDen (V c main_v0_0) (V c main_v0_1) (Cert.Spec.col (ti t) p) (tj t) := by
  refine (main_pay5_apply _ _ _ p).trans ?_
  refine congrArg (xs1 (ix2 p (0 : Fin 1)) + ·) ?_
  unfold Cert.Spec.tDen
  exact Finset.sum_congr rfl fun l _ => r1_exp_at V c t p l _ _ rfl rfl

/-- One position's step on both accumulators: from the first `j` tile sums to the first `j + 1`. -/
theorem r1_acc_step (t : Fin cfg1.N) (p : Fin 1024) (xs0 xs1 : FVec Ideal S1024x1 .f32)
    (i0 : xs0 (ix2 p (0 : Fin 1)) = Cert.Spec.accN (Cert.Spec.tNum (V c main_v0_0) (V c main_v0_1) (V c main_arg3) (Cert.Spec.col (ti t) p))
      (V c main_v0_2 (ix2 (Cert.Spec.col (ti t) p) (0 : Fin 1))) (t.val % 8))
    (i1 : xs1 (ix2 p (0 : Fin 1)) = Cert.Spec.accN (Cert.Spec.tDen (V c main_v0_0) (V c main_v0_1) (Cert.Spec.col (ti t) p))
      (V c main_v0_2 (ix2 (Cert.Spec.col (ti t) p) (0 : Fin 1))) (t.val % 8)) :
    k1_pay4 (F := Ideal) (iblk1 V c 0 t) (LD1 t (iblk1 V c 1 t)) (iblk1 V c 3 t) xs0 (ix2 p (0 : Fin 1))
        = Cert.Spec.accN (Cert.Spec.tNum (V c main_v0_0) (V c main_v0_1) (V c main_arg3) (Cert.Spec.col (ti t) p))
          (V c main_v0_2 (ix2 (Cert.Spec.col (ti t) p) (0 : Fin 1))) (t.val % 8 + 1)
    ∧ k1_pay5 (F := Ideal) (iblk1 V c 0 t) (LD1 t (iblk1 V c 1 t)) xs1 (ix2 p (0 : Fin 1))
        = Cert.Spec.accN (Cert.Spec.tDen (V c main_v0_0) (V c main_v0_1) (Cert.Spec.col (ti t) p))
          (V c main_v0_2 (ix2 (Cert.Spec.col (ti t) p) (0 : Fin 1))) (t.val % 8 + 1) := by
  constructor
  · refine (r1_step_num V c t p xs0).trans ?_
    rw [i0, r1_accN_step]
  · refine (r1_step_den V c t p xs1).trans ?_
    rw [i1, r1_accN_step]

/-- After position `n`, row `p` of each accumulator is the seed of row `(n / 8)·1024 + p` with the first `n % 8 + 1` tile
    sums of that row added left to right. -/
theorem acc_inv (n : ℕ) (hn : n < cfg1.N) (p : Fin 1024) :
    (outsAt1 (F := Ideal) V c n hn).2.1 (ix2 p (0 : Fin 1)) = Cert.Spec.accN (Cert.Spec.tNum (V c main_v0_0) (V c main_v0_1) (V c main_arg3) (Cert.Spec.col (ti ⟨n, hn⟩) p)) (V c main_v0_2 (ix2 (Cert.Spec.col (ti ⟨n, hn⟩) p) (0 : Fin 1))) (n % 8 + 1)
    ∧ (outsAt1 (F := Ideal) V c n hn).2.2 (ix2 p (0 : Fin 1)) = Cert.Spec.accN (Cert.Spec.tDen (V c main_v0_0) (V c main_v0_1) (Cert.Spec.col (ti ⟨n, hn⟩) p)) (V c main_v0_2 (ix2 (Cert.Spec.col (ti ⟨n, hn⟩) p) (0 : Fin 1))) (n % 8 + 1) := by
  induction n using Nat.strong_induction_on generalizing p with
  | _ n ih =>
    by_cases h0 : n % 8 = 0
    · -- the first column tile: both accumulators start from the seed block
      have h1 : ¬n % 8 = 7 := by omega
      have e : outsAt1 (F := Ideal) V c n hn = caseA V c ⟨n, hn⟩ h0 h1 := outsAt1_A V c ⟨n, hn⟩ h0 h1
      rw [e, caseA_s0, caseA_s1]
      refine r1_acc_step V c ⟨n, hn⟩ p _ _ ?_ ?_
      · refine (main_pay1_apply _ _).trans ((iblk1_2 V c ⟨n, hn⟩ p 0).trans ?_)
        show _ = Cert.Spec.accN _ _ (n % 8)
        rw [h0]; rfl
      · refine (main_pay2_apply _ _).trans ((iblk1_2 V c ⟨n, hn⟩ p 0).trans ?_)
        show _ = Cert.Spec.accN _ _ (n % 8)
        rw [h0]; rfl
    · -- a later column tile of the same row tile: the accumulators of the position before, one tile sum further
      have hn' : n - 1 < cfg1.N := Nat.lt_of_le_of_lt (Nat.sub_le _ _) hn
      obtain ⟨i0, i1⟩ := ih (n - 1) (by omega) hn' p
      have eti : ti ⟨n - 1, hn'⟩ = ti ⟨n, hn⟩ := Fin.ext (by show (n - 1) / 8 = n / 8; omega)
      have em : (n - 1) % 8 + 1 = n % 8 := by omega
      rw [eti, em] at i0 i1
      by_cases h1 : n % 8 = 7
      · have e : outsAt1 (F := Ideal) V c n hn = caseC V c ⟨n, hn⟩ h0 h1 (outsAt1 V c (n - 1) hn').2.1 (outsAt1 V c (n - 1) hn').2.2 :=
          outsAt1_C V c ⟨n, hn⟩ h0 h1
        rw [e, caseC_s0, caseC_s1]
        exact r1_acc_step V c ⟨n, hn⟩ p _ _ i0 i1
      · have e : outsAt1 (F := Ideal) V c n hn = caseB V c ⟨n, hn⟩ h0 h1 (outsAt1 V c (n - 1) hn').2.1 (outsAt1 V c (n - 1) hn').2.2 :=
          outsAt1_B V c ⟨n, hn⟩ h0 h1
        rw [e, caseB_s0, caseB_s1]
        exact r1_acc_step V c ⟨n, hn⟩ p _ _ i0 i1

/-- At the last column tile of a row tile the output block's row `p` is the tiled row loss of row `(t / 8)·1024 + p`. -/
theorem out_at (t : Fin cfg1.N) (h1 : t.val % 8 = 7) (p : Fin 1024) :
    (outsAt1 (F := Ideal) V c t.val t.isLt).1 (ix2 p (0 : Fin 1)) = Cert.Spec.tLoss (V c main_v0_0) (V c main_v0_1) (V c main_v0_2) (V c main_arg3) (Cert.Spec.col (ti t) p) := by
  have h0 : ¬t.val % 8 = 0 := by omega
  obtain ⟨a0, a1⟩ := acc_inv V c t.val t.isLt p
  rw [outsAt1_C V c t h0 h1] at a0 a1 ⊢
  rw [caseC_s0] at a0
  rw [caseC_s1] at a1
  rw [caseC_out]
  refine (main_pay6_apply _ _ p).trans ?_
  rw [a0, a1, h1]
  rfl

end Cert.KernelIdeal.Val

end
-- ==== Proof.KI.ValR1Arr.lean ====
/-
  The second region's result array after its sixty-four grid points, from what the body leaves in the result block.

  Grid point `t = 8·i + j` holds rows `i·1024 … i·1024 + 1023` of the result column in its block, and writes the block
  back exactly when `j = 7`, at the end of row tile `i`.  If at each such point the block's entry `p` is the tiled row loss
  of row `i·1024 + p`, then, the eight row tiles covering the 8192 rows, the array ends holding the column of row losses.
-/
import proofs.«158616_j61976378081883_2_alg».proof.Proof.KI.FrameR1
import proofs.«158616_j61976378081883_2_alg».proof.Proof.KI.BlkR1
import proofs.«158616_j61976378081883_2_alg».proof.Proof.Spec2
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem

/-- The result window's block index at position `t`: row tile `t / 8`, column `0`. -/
theorem w4_idx : ∀ t : Fin cfg1.N, win1_4.index t (0 : Fin 2) = t.val / 8 ∧ win1_4.index t (1 : Fin 2) = 0 :=
  (by decide +kernel : ∀ t : Fin grid1.N, win1_4.index t (0 : Fin 2) = t.val / 8 ∧ win1_4.index t (1 : Fin 2) = 0)

/-- The last grid point of the row tile that holds row `r`. -/
def w4_pt (r : Fin 8192) : Fin cfg1.N :=
  ⟨8 * (r.val / 1024) + 7, by rw [show cfg1.N = 64 from N_1]; have := r.isLt; omega⟩

/-- Entry `(p, z)` of the block at position `t` sits in the array at row `(t / 8)·1024 + p`. -/
theorem w4_emb (t : Fin cfg1.N) (p : Fin 1024) (z : Fin 1) :
    ((cfg1.win 4).blk t).view.emb (ix2 p z) = (ix2 (Cert.Spec.col (ti t) p) z : S8192x1.Idx) := by
  obtain ⟨e0, e1⟩ := w4_idx t
  funext a; apply Fin.ext
  match a with
  | ⟨0, _⟩ => show win1_4.index t (0 : Fin 2) * 1024 + 1 * p.val = (t.val / 8) * 1024 + p.val; rw [e0]; omega
  | ⟨1, _⟩ => show win1_4.index t (1 : Fin 2) * 1 + 1 * z.val = z.val; rw [e1]; omega

/-- An index of the array is in position `t`'s block iff each coordinate is in the block's range on its axis. -/
theorem w4_mem_blk (t : Fin cfg1.N) (i : S8192x1.Idx) :
    i ∈ ((cfg1.win 4).blk t).view.set ↔ ∀ a : Fin 2, win1_4.index t a * S1024x1.size a ≤ (i a).val ∧ (i a).val < win1_4.index t a * S1024x1.size a + S1024x1.size a := by
  show i ∈ ((View.whole main_v1).slice (win1_4.rect t)).set ↔ _
  rw [View.set_slice_whole, Rect.mem_set_unit]
  exact Iff.rfl

/-- Every index of the array is in the block of a position that writes back: the last one of its row tile. -/
theorem w4_cover (i : S8192x1.Idx) : ∃ t : Fin cfg1.N, (cfg1.win 4).flush t = true ∧ i ∈ ((cfg1.win 4).blk t).view.set := by
  have hi0 : (i 0).val < 8192 := (i 0).isLt
  have hi1 : (i 1).val < 1 := (i 1).isLt
  have ept : (w4_pt ⟨(i 0).val, hi0⟩).val = 8 * ((i 0).val / 1024) + 7 := rfl
  refine ⟨w4_pt ⟨(i 0).val, hi0⟩, (flush1_4 _).mpr (by rw [ept]; omega), ?_⟩
  obtain ⟨e0, e1⟩ := w4_idx (w4_pt ⟨(i 0).val, hi0⟩)
  rw [w4_mem_blk]
  intro a
  match a with
  | ⟨0, _⟩ => show win1_4.index _ (0 : Fin 2) * 1024 ≤ (i 0).val ∧ (i 0).val < win1_4.index _ (0 : Fin 2) * 1024 + 1024; rw [e0, ept]; omega
  | ⟨1, _⟩ => show win1_4.index _ (1 : Fin 2) * 1 ≤ (i 1).val ∧ (i 1).val < win1_4.index _ (1 : Fin 2) * 1 + 1; rw [e1]; omega

variable (V : (c : Dev nD) → (b : Ref sig .tc) → Buf (Elt Ideal) ((c : Thread nD τ).loc b)) (c : Dev nD)

/-- What a writing position writes back is its block of the column of row losses. -/
theorem w4_flushed_eq
    (hout : ∀ (t : Fin cfg1.N), t.val % 8 = 7 → ∀ p : Fin 1024,
      (outsAt1 (F := Ideal) V c t.val t.isLt).1 (ix2 p (0 : Fin 1)) = Cert.Spec.tLoss (V c main_v0_0) (V c main_v0_1) (V c main_v0_2) (V c main_arg3) (Cert.Spec.col (ti t) p))
    (t : Fin cfg1.N) (ht : t.val % 8 = 7) :
    (dat1 (F := Ideal) V c).flushed 4 t = ((cfg1.win 4).blk t).view.read (Elt Ideal) (Cert.Spec.TLoss (V c main_v0_0) (V c main_v0_1) (V c main_v0_2) (V c main_arg3)) := by
  show (cfg1.win 4).cut (grid1.coords t) ((dat1 V c).after 4 t) = _
  rw [after1_4]
  refine funext fun (y : S1024x1.Idx) => ?_
  obtain ⟨p, z, rfl⟩ : ∃ (p : Fin 1024) (z : Fin 1), y = ix2 p z := ⟨y 0, y 1, eq_ix2 y⟩
  obtain rfl : z = 0 := Subsingleton.elim _ _
  rw [View.read_apply]
  show (outsAt1 (F := Ideal) V c t.val t.isLt).1 (ix2 p (0 : Fin 1)) = Cert.Spec.TLoss (V c main_v0_0) (V c main_v0_1) (V c main_v0_2) (V c main_arg3) (((cfg1.win 4).blk t).view.emb (ix2 p (0 : Fin 1)))
  rw [w4_emb, Cert.Spec.TLoss_apply]
  exact hout t ht p

/-- The result array after the region: the column of tiled row losses of the three intermediate arrays and the weights. -/
theorem arr1_4_of
    (hout : ∀ (t : Fin cfg1.N), t.val % 8 = 7 → ∀ p : Fin 1024,
      (outsAt1 (F := Ideal) V c t.val t.isLt).1 (ix2 p (0 : Fin 1)) = Cert.Spec.tLoss (V c main_v0_0) (V c main_v0_1) (V c main_v0_2) (V c main_arg3) (Cert.Spec.col (ti t) p)) :
    (dat1 (F := Ideal) V c).arrAt 4 cfg1.N = Cert.Spec.TLoss (V c main_v0_0) (V c main_v0_1) (V c main_v0_2) (V c main_arg3) :=
  (dat1 (F := Ideal) V c).arrAt_eq_of_cover 4 (Cert.Spec.TLoss (V c main_v0_0) (V c main_v0_1) (V c main_v0_2) (V c main_arg3))
    (fun t hf => w4_flushed_eq V c hout t ((flush1_4 t).mp hf)) w4_cover

end Cert.KernelIdeal.Val

end
-- ==== Proof.KI.ValFinal.lean ====
/-
  The idealized kernel program's result: the mean of the tiled row losses of its four argument arrays.  The first
  pallas_call leaves the doubled normalised first factor, the normalised second factor and the seed column in its three
  output arrays; the second turns those and the weights into the column of tiled row losses; the closing host operations
  take the mean.
-/
import proofs.«158616_j61976378081883_2_alg».proof.Proof.KI.ValTail
import proofs.«158616_j61976378081883_2_alg».proof.Proof.KI.ValR0
import proofs.«158616_j61976378081883_2_alg».proof.Proof.KI.ValR1
import proofs.«158616_j61976378081883_2_alg».proof.Proof.KI.ValR1Arr

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Fr

variable (m : (ℓ : Loc nD τ sig) → Buf (Elt Ideal) ℓ) (ρ : Dev nD → PrngReg) (c : Dev nD)

theorem W3_v3 : W3 (F := Ideal) m ρ c (Proc.devRef .tc main_v3)
    = fun _ => Cert.Spec.mean (Cert.Spec.kerLoss (m ((c : Thread nD τ).loc main_arg0)) (m ((c : Thread nD τ).loc main_arg1))
        (m ((c : Thread nD τ).loc main_arg2)) (m ((c : Thread nD τ).loc main_arg3))) := by
  have e0 : V1 (F := Ideal) m ρ c main_v0_0 = Cert.Spec.Z1 (m ((c : Thread nD τ).loc main_arg0)) :=
    (W1_arr m ρ c 3).trans (arr0_3 (V0 m ρ) c)
  have e1 : V1 (F := Ideal) m ρ c main_v0_1 = Cert.Spec.Z2 (m ((c : Thread nD τ).loc main_arg1)) :=
    (W1_arr m ρ c 4).trans (arr0_4 (V0 m ρ) c)
  have e2 : V1 (F := Ideal) m ρ c main_v0_2 = Cert.Spec.NTS (m ((c : Thread nD τ).loc main_arg2)) (m ((c : Thread nD τ).loc main_arg0)) :=
    (W1_arr m ρ c 5).trans (arr0_5 (V0 m ρ) c)
  have e3 : V1 (F := Ideal) m ρ c main_arg3 = m ((c : Thread nD τ).loc main_arg3) :=
    W1_of_ne m ρ c main_arg3 (by decide)
  rw [W3_v3_raw, arr1_4_of (V1 m ρ) c (out_at (V1 m ρ) c), e0, e1, e2, e3]
  rfl

end Cert.KernelIdeal.Val

end
-- ==== Proof.RefValue.lean ====
/-
  The reference program's result, read as the specification's function of the four argument arrays.

  Stage by stage, at an index written by its coordinates: the clamped row norm, the normalised entry, the
  exponential of the scaled inner product of two normalised rows, the seed, the two row sums, the row loss, and the
  mean of the 8192 row losses.  Each stage is the specification's definition of the same name; a sum's zero initial
  value is absorbed where the specification has none, and kept in the mean, where it has one.
-/
import proofs.«158616_j61976378081883_2_alg».proof.Proof.Gen.ReferenceIdeal.Run
import proofs.«158616_j61976378081883_2_alg».proof.Proof.Gen.ReferenceIdeal.Read
import proofs.«158616_j61976378081883_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The row norms and the normalised entries -/

/-- The first array's clamped row norm. -/
theorem den1_at (x : FVec Ideal S8192x512 .f32) (n : Fin 8192) (z : Fin 1) :
    val_main_v2 (F := Ideal) x (ix2 n z) = Cert.Spec.den x n := by
  have e : ∀ k : Fin 512, idx_main_call0_v1 (idx_main_call0_v2 (ix2 n z)) k = ix2 n k := fun k =>
    funext fun a => Fin.ext (by match a with | ⟨0, _⟩ => rfl | ⟨1, _⟩ => rfl)
  rw [val_main_v2_apply, val_main_v0_apply, val_main_call0_v2_apply, val_main_call0_v1_apply, val_main_v1_apply,
    val_main_cst_apply, val_main_call0_cst_apply]
  simp only [val_main_call0_v0_apply, e, Ideal.maximumf_def, Ideal.hostUnary_sqrt_def, Ideal.ofBits_def, Ideal.mulf_def,
    Ideal.ofBits_zero_f32, zero_add]
  rfl

/-- The second array's clamped row norm. -/
theorem den2_at (x : FVec Ideal S8192x512 .f32) (n : Fin 8192) (z : Fin 1) :
    val_main_v7 (F := Ideal) x (ix2 n z) = Cert.Spec.den x n := by
  have e : ∀ k : Fin 512, idx_main_call1_v1 (idx_main_call1_v2 (ix2 n z)) k = ix2 n k := fun k =>
    funext fun a => Fin.ext (by match a with | ⟨0, _⟩ => rfl | ⟨1, _⟩ => rfl)
  rw [val_main_v7_apply, val_main_v5_apply, val_main_call1_v2_apply, val_main_call1_v1_apply, val_main_v6_apply,
    val_main_cst_0_apply, val_main_call1_cst_apply]
  simp only [val_main_call1_v0_apply, e, Ideal.maximumf_def, Ideal.hostUnary_sqrt_def, Ideal.ofBits_def, Ideal.mulf_def,
    Ideal.ofBits_zero_f32, zero_add]
  rfl

/-- The first array's normalised entry. -/
theorem zn1_at (x : FVec Ideal S8192x512 .f32) (n : Fin 8192) (h : Fin 512) :
    val_main_v4 (F := Ideal) x (ix2 n h) = Cert.Spec.zn x n h := by
  have e : idx_main_v3 (ix2 n h) = ix2 n (0 : Fin 1) :=
    funext fun a => Fin.ext (by match a with | ⟨0, _⟩ => rfl | ⟨1, _⟩ => rfl)
  rw [val_main_v4_apply, val_main_v3_apply, e, den1_at, Ideal.hostDivf_def]
  rfl

/-- The second array's normalised entry. -/
theorem zn2_at (x : FVec Ideal S8192x512 .f32) (n : Fin 8192) (h : Fin 512) :
    val_main_v9 (F := Ideal) x (ix2 n h) = Cert.Spec.zn x n h := by
  have e : idx_main_v8 (ix2 n h) = ix2 n (0 : Fin 1) :=
    funext fun a => Fin.ext (by match a with | ⟨0, _⟩ => rfl | ⟨1, _⟩ => rfl)
  rw [val_main_v9_apply, val_main_v8_apply, e, den2_at, Ideal.hostDivf_def]
  rfl

/-! ## The exponentials -/

/-- The exponential of the scaled inner product of row `n` of the first and row `m` of the second normalised array. -/
theorem fx_at (x1 x2 : FVec Ideal S8192x512 .f32) (n m : Fin 8192) :
    val_main_v13 (F := Ideal) x1 x2 (ix2 n m) = Cert.Spec.refFx x1 x2 n m := by
  have el : ∀ k : Fin 512, lidx_main_v10 (ix2 n m) k = ix2 n k := fun k =>
    funext fun a => Fin.ext (by match a with | ⟨0, _⟩ => rfl | ⟨1, _⟩ => rfl)
  have er : ∀ k : Fin 512, ridx_main_v10 (ix2 n m) k = ix2 m k := fun k =>
    funext fun a => Fin.ext (by match a with | ⟨0, _⟩ => rfl | ⟨1, _⟩ => rfl)
  rw [val_main_v13_apply, val_main_v12_apply, val_main_v10_apply, val_main_v11_apply, val_main_cst_1_apply]
  simp only [el, er, zn1_at, zn2_at, Ideal.hostUnary_exp_def, Ideal.hostDivf_def, Ideal.ofBits_def]
  rfl

/-- The seed of both row sums. -/
theorem nts_at (x1 pse : FVec Ideal S8192x512 .f32) (n : Fin 8192) (z : Fin 1) :
    val_main_v19 (F := Ideal) x1 pse (ix2 n z) = Cert.Spec.nts pse x1 n := by
  have e : ∀ k : Fin 512, idx_main_v15 (idx_main_v16 (ix2 n z)) k = ix2 n k := fun k =>
    funext fun a => Fin.ext (by match a with | ⟨0, _⟩ => rfl | ⟨1, _⟩ => rfl)
  rw [val_main_v19_apply, val_main_v18_apply, val_main_v16_apply, val_main_v15_apply, val_main_v17_apply,
    val_main_cst_3_apply, val_main_cst_2_apply]
  simp only [val_main_v14_apply, e, Ideal.hostUnary_exp_def, Ideal.hostDivf_def, Ideal.ofBits_def, Ideal.mulf_def,
    Ideal.ofBits_zero_f32, zero_add]
  rfl

/-! ## The row sums and the row loss -/

/-- The weighted row sum on the seed. -/
theorem num_at (x1 x2 pse : FVec Ideal S8192x512 .f32) (gat : FVec Ideal S8192x8192 .f32) (n : Fin 8192) (z : Fin 1) :
    val_main_v23 (F := Ideal) x1 x2 pse gat (ix2 n z) = Cert.Spec.refNum x1 x2 pse gat n := by
  have e : ∀ k : Fin 8192, idx_main_v21 (idx_main_v22 (ix2 n z)) k = ix2 n k := fun k =>
    funext fun a => Fin.ext (by match a with | ⟨0, _⟩ => rfl | ⟨1, _⟩ => rfl)
  rw [val_main_v23_apply, val_main_v22_apply, val_main_v21_apply, val_main_cst_4_apply, nts_at]
  simp only [val_main_v20_apply, e, fx_at, Ideal.addf_def, Ideal.ofBits_def, Ideal.mulf_def, Ideal.ofBits_zero_f32, zero_add]
  rfl

/-- The plain row sum on the seed. -/
theorem den_at (x1 x2 pse : FVec Ideal S8192x512 .f32) (n : Fin 8192) (z : Fin 1) :
    val_main_v26 (F := Ideal) x1 x2 pse (ix2 n z) = Cert.Spec.refDen x1 x2 pse n := by
  have e : ∀ k : Fin 8192, idx_main_v24 (idx_main_v25 (ix2 n z)) k = ix2 n k := fun k =>
    funext fun a => Fin.ext (by match a with | ⟨0, _⟩ => rfl | ⟨1, _⟩ => rfl)
  rw [val_main_v26_apply, val_main_v25_apply, val_main_v24_apply, val_main_cst_5_apply, nts_at]
  simp only [e, fx_at, Ideal.addf_def, Ideal.ofBits_def, Ideal.ofBits_zero_f32, zero_add]
  rfl

/-- The row loss. -/
theorem loss_at (x1 x2 pse : FVec Ideal S8192x512 .f32) (gat : FVec Ideal S8192x8192 .f32) (n : Fin 8192) (z : Fin 1) :
    val_main_v31 (F := Ideal) x1 x2 pse gat (ix2 n z) = Cert.Spec.refLoss x1 x2 pse gat n := by
  rw [val_main_v31_apply, val_main_v30_apply, val_main_v29_apply, val_main_v28_apply, val_main_v27_apply,
    val_main_cst_6_apply, num_at, den_at]
  simp only [Ideal.hostNegf_def, Ideal.negf_def, Ideal.hostUnary_log_def, Ideal.hostDivf_def, Ideal.addf_def, Ideal.ofBits_def]
  rfl

/-! ## The result -/

/-- The reference's result is the mean of the specification's row losses. -/
theorem result_eq (x1 x2 pse : FVec Ideal S8192x512 .f32) (gat : FVec Ideal S8192x8192 .f32) :
    Host.divf (Host.reduceAdd (Host.negf (Host.log (Host.divf (addf (Host.exp (Host.divf (broadcastInDim S8192x1 ![0] bcast_S8192_S8192x1_0 (Host.reduceAdd (mulf pse x1) (constant S_ .f32 0x00000000#32) reducesTo_S8192x512_S8192_d1 h_S_)) (broadcastInDim S8192x1 ![] bcast_S_S8192x1 (constant S_ .f32 0x3F000000#32)))) (broadcastInDim S8192x1 ![0] bcast_S8192_S8192x1_0 (Host.reduceAdd (mulf (Host.exp (Host.divf (Host.dotGeneral dot_S8192x512_S8192x512_S8192x8192_1_1_0_0_n_n none (Host.divf x1 (broadcastInDim S8192x512 ![0, 1] bcast_S8192x1_S8192x512_0_1 (maximumf (Host.sqrt (broadcastInDim S8192x1 ![0] bcast_S8192_S8192x1_0 (Host.reduceAdd (mulf x1 x1) (constant S_ .f32 0x00000000#32) reducesTo_S8192x512_S8192_d1 h_S_))) (broadcastInDim S8192x1 ![] bcast_S_S8192x1 (constant S_ .f32 0x2B8CBCCC#32))))) (Host.divf x2 (broadcastInDim S8192x512 ![0, 1] bcast_S8192x1_S8192x512_0_1 (maximumf (Host.sqrt (broadcastInDim S8192x1 ![0] bcast_S8192_S8192x1_0 (Host.reduceAdd (mulf x2 x2) (constant S_ .f32 0x00000000#32) reducesTo_S8192x512_S8192_d1 h_S_))) (broadcastInDim S8192x1 ![] bcast_S_S8192x1 (constant S_ .f32 0x2B8CBCCC#32)))))) (broadcastInDim S8192x8192 ![] bcast_S_S8192x8192 (constant S_ .f32 0x3F000000#32)))) gat) (constant S_ .f32 0x00000000#32) reducesTo_S8192x8192_S8192_d1 h_S_))) (addf (addf (Host.exp (Host.divf (broadcastInDim S8192x1 ![0] bcast_S8192_S8192x1_0 (Host.reduceAdd (mulf pse x1) (constant S_ .f32 0x00000000#32) reducesTo_S8192x512_S8192_d1 h_S_)) (broadcastInDim S8192x1 ![] bcast_S_S8192x1 (constant S_ .f32 0x3F000000#32)))) (broadcastInDim S8192x1 ![0] bcast_S8192_S8192x1_0 (Host.reduceAdd (Host.exp (Host.divf (Host.dotGeneral dot_S8192x512_S8192x512_S8192x8192_1_1_0_0_n_n none (Host.divf x1 (broadcastInDim S8192x512 ![0, 1] bcast_S8192x1_S8192x512_0_1 (maximumf (Host.sqrt (broadcastInDim S8192x1 ![0] bcast_S8192_S8192x1_0 (Host.reduceAdd (mulf x1 x1) (constant S_ .f32 0x00000000#32) reducesTo_S8192x512_S8192_d1 h_S_))) (broadcastInDim S8192x1 ![] bcast_S_S8192x1 (constant S_ .f32 0x2B8CBCCC#32))))) (Host.divf x2 (broadcastInDim S8192x512 ![0, 1] bcast_S8192x1_S8192x512_0_1 (maximumf (Host.sqrt (broadcastInDim S8192x1 ![0] bcast_S8192_S8192x1_0 (Host.reduceAdd (mulf x2 x2) (constant S_ .f32 0x00000000#32) reducesTo_S8192x512_S8192_d1 h_S_))) (broadcastInDim S8192x1 ![] bcast_S_S8192x1 (constant S_ .f32 0x2B8CBCCC#32)))))) (broadcastInDim S8192x8192 ![] bcast_S_S8192x8192 (constant S_ .f32 0x3F000000#32)))) (constant S_ .f32 0x00000000#32) reducesTo_S8192x8192_S8192_d1 h_S_))) (broadcastInDim S8192x1 ![] bcast_S_S8192x1 (constant S_ .f32 0x322BCC77#32)))))) (constant S_ .f32 0x00000000#32) reducesTo_S8192x1_S_d0_1 h_S_) (constant S_ .f32 0x46000000#32)
      = fun _ => Cert.Spec.mean (Cert.Spec.refLoss x1 x2 pse gat) := by
  refine (val_main_v33_eq (F := Ideal) x1 x2 pse gat).trans ?_
  funext i
  rw [val_main_v33_apply, val_main_v32_apply, val_main_cst_8_apply, val_main_cst_7_apply, sum_idx2]
  simp only [Fin.sum_univ_one, loss_at, Ideal.hostDivf_def, Ideal.ofBits_def]
  rfl

end Cert.ReferenceIdeal.RefValue

end
-- ==== Proof.FiniteInputs.lean ====
/-
  The precondition, decoded: when the predicate holds of four arrays, every entry of the first two is a real number.

  The predicate is the conjunction of four "every entry has absolute value below +∞" tests, one per array.  A conjunction
  of one-bit words that is 1 has both words 1; a reduction by "and" over all axes that is 1 had a 1 at every index; and an
  extended real whose absolute value, the larger of itself and its negation, is strictly below +∞ is neither infinity.
-/
import proofs.«158616_j61976378081883_2_alg».proof.Pre_finite_inputs
import proofs.«158616_j61976378081883_2_alg».proof.Proof.Gen.Pre_finite_inputs
import proofs.«158616_j61976378081883_2_alg».proof.Proof.Spec
import Idealize.ShloMosaic.Lib.ReduceAll

noncomputable section

namespace Cert.FiniteInputs

open Idealize.ShloMosaic Idealize.ShloMosaic.ValueIdx Cert.Pre_finite_inputs

/-- The scalar shape has one index. -/
instance : Subsingleton S_.Idx := ⟨fun a b => funext fun d => d.elim0⟩

/-- A conjunction of two arrays of words, read at an index. -/
theorem andi_at {s : Shape} {w : Nat} (x y : IVec s w) (i : s.Idx) : andi x y i = IntOp.andi (x i) (y i) := rfl

/-- The pattern of +∞. -/
theorem ofBits_inf : Ideal.ofBits .f32 0x7F800000#32 = (⊤ : EReal) := by simp [Ideal.ofBits, Ideal.ieee]

/-- An extended real whose absolute value is strictly below +∞ is a real number. -/
theorem real_of_abs_lt (x : EReal) (h : Ideal.cmp .olt (max x (-x)) (Ideal.ofBits .f32 0x7F800000#32) = 1#1) :
    x ≠ ⊤ ∧ x ≠ ⊥ := by
  rw [ofBits_inf] at h
  induction x using EReal.rec with
  | bot => simp [Ideal.cmp] at h
  | coe r => exact ⟨EReal.coe_ne_top r, EReal.coe_ne_bot r⟩
  | top => simp [Ideal.cmp] at h

/-- One entry's test, read back. -/
theorem elem_real [hP : Cert.Pre_finite_inputs.Facts] (a : FVec Ideal S8192x512 .f32) (i : S8192x512.Idx)
    (e : cmpf .olt (Host.absf a) (broadcastInDim S8192x512 ![] Facts.bcast_S_S8192x512 (constant (F := Ideal) S_ .f32 0x7F800000#32)) i = 1#1) :
    a i ≠ ⊤ ∧ a i ≠ ⊥ :=
  real_of_abs_lt (a i) e

/-- When the predicate holds, the first two arrays hold real numbers. -/
theorem finite_of_fn [hP : Cert.Pre_finite_inputs.Facts] (a0 a1 a2 : FVec Ideal S8192x512 .f32) (a3 : FVec Ideal S8192x8192 .f32)
    (h : Cert.Pre_finite_inputs.fn (F := Ideal) a0 a1 a2 a3 = fun _ => 1#1) : Cert.Spec.Finite a0 ∧ Cert.Spec.Finite a1 := by
  have h0 := congrFun h ix0
  dsimp only [Cert.Pre_finite_inputs.fn, Cert.Pre_finite_inputs.fn_part1] at h0
  rw [andi_at, IntOp.andi_eq_one, andi_at, IntOp.andi_eq_one, andi_at, IntOp.andi_eq_one] at h0
  obtain ⟨⟨⟨h3, h7⟩, _⟩, _⟩ := h0
  exact ⟨fun i => elem_real a0 i (Host.reduce_andi_all _ _ _ _ _ h3 i),
    fun i => elem_real a1 i (Host.reduce_andi_all _ _ _ _ _ h7 i)⟩

end Cert.FiniteInputs

end
-- ==== Proof.SpecLaws.lean ====
/-
  Algebra of the two arrangements of the row loss over the extended reals: the eightfold left-to-right accumulation is a
  seed plus a sum, the eight column tiles of 1024 partition the 8192 columns, and, on arrays of real numbers, doubling the
  first factor inside the finite sum is the same as dividing the sum by one half.
-/
import proofs.«158616_j61976378081883_2_alg».proof.Proof.Spec

noncomputable section

open scoped BigOperators

namespace Cert.Spec

open Idealize.ShloMosaic Idealize.ShloMosaic.ValueIdx

/-- Eight left-to-right additions onto a seed are the seed plus the sum of the eight terms. -/
theorem accN_eight (f : Fin 8 → EReal) (a0 : EReal) : accN f a0 8 = a0 + ∑ j : Fin 8, f j := by
  simp [accN, Fin.sum_univ_eight, add_assoc]

/-- The pair (tile, column in the tile) runs over the 8192 columns once each. -/
theorem col_bijective : Function.Bijective (fun p : Fin 8 × Fin 1024 => col p.1 p.2) := by
  constructor
  · rintro ⟨⟨j, hj⟩, ⟨l, hl⟩⟩ ⟨⟨j', hj'⟩, ⟨l', hl'⟩⟩ h
    have h' : j * 1024 + l = j' * 1024 + l' := congrArg Fin.val h
    have e1 : j = j' := by omega
    have e2 : l = l' := by omega
    subst e1; subst e2; rfl
  · rintro ⟨m, hm⟩
    refine ⟨(⟨m / 1024, by omega⟩, ⟨m % 1024, by omega⟩), Fin.ext ?_⟩
    show m / 1024 * 1024 + m % 1024 = m
    omega

/-- Summing tile by tile is summing over all columns. -/
theorem sum_tiles (g : Fin 8192 → EReal) : (∑ j : Fin 8, ∑ l : Fin 1024, g (col j l)) = ∑ m : Fin 8192, g m := by
  rw [← Fintype.sum_prod_type']
  exact Fintype.sum_bijective (fun p : Fin 8 × Fin 1024 => col p.1 p.2) col_bijective _ _ (fun _ => rfl)

/-! ## The literals as real numbers -/

theorem zero_eq : zero = 0 := by simp [zero, Ideal.ofBits, Ideal.ieee]

theorem two_eq : two = ((2 : ℝ) : EReal) := by
  simp [two, Ideal.ofBits, Ideal.ieee, -EReal.coe_mul]; norm_num

theorem half_eq : half = (((1 : ℝ) / 2 : ℝ) : EReal) := by
  simp [half, Ideal.ofBits, Ideal.ieee, -EReal.coe_mul]; norm_num

theorem epsNorm_pos : ∃ e : ℝ, 0 < e ∧ epsNorm = (e : EReal) := by
  simp [epsNorm, Ideal.ofBits, Ideal.ieee, -EReal.coe_mul]

/-! ## Arrays of real numbers -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An entry of an array of real numbers is the coercion of its real part. -/
theorem Finite.eq_coe {r c : ℕ} {x : Arr r c} (hx : Finite x) (i : (⟨2, ![r, c]⟩ : Shape).Idx) :
    x i = ((x i).toReal : EReal) :=
  (EReal.coe_toReal (hx i).1 (hx i).2).symm

/-- The clamped norm of a row of real numbers is a positive real. -/
theorem den_real (x : Arr 8192 512) (hx : Finite x) (n : Fin 8192) : ∃ d : ℝ, 0 < d ∧ den x n = (d : EReal) := by
  obtain ⟨e, he, hE⟩ := epsNorm_pos
  have hs : (∑ h : Fin 512, x (ix2 n h) * x (ix2 n h))
      = ((∑ h : Fin 512, (x (ix2 n h)).toReal * (x (ix2 n h)).toReal : ℝ) : EReal) := by
    rw [coe_sum]
    refine Finset.sum_congr rfl fun h _ => ?_
    rw [EReal.coe_mul, ← hx.eq_coe]
  have h0 : 0 ≤ ∑ h : Fin 512, (x (ix2 n h)).toReal * (x (ix2 n h)).toReal :=
    Finset.sum_nonneg fun h _ => mul_self_nonneg _
  refine ⟨max (Real.sqrt (∑ h : Fin 512, (x (ix2 n h)).toReal * (x (ix2 n h)).toReal)) e, lt_max_of_lt_right he, ?_⟩
  rw [den, hs, Ideal.sqrt_coe, if_neg (not_lt.mpr h0), hE]
  exact (EReal.coe_strictMono.monotone.map_max).symm

/-- The normalised entries of a row of real numbers are real. -/
theorem zn_real (x : Arr 8192 512) (hx : Finite x) (n : Fin 8192) :
    ∃ z : Fin 512 → ℝ, ∀ h, zn x n h = (z h : EReal) := by
  obtain ⟨d, hd, hD⟩ := den_real x hx n
  refine ⟨fun h => (x (ix2 n h)).toReal * (1 / d), fun h => ?_⟩
  rw [zn, hD, Ideal.div_coe hd.ne', EReal.coe_mul, ← hx.eq_coe]

/-- On real arrays, doubling the first factor under the sum is dividing the sum by one half. -/
theorem kerFx_eq_refFx (x1 x2 : Arr 8192 512) (h1 : Finite x1) (h2 : Finite x2) (n m : Fin 8192) :
    kerFx x1 x2 n m = refFx x1 x2 n m := by
  obtain ⟨a, ha⟩ := zn_real x1 h1 n
  obtain ⟨b, hb⟩ := zn_real x2 h2 m
  have hk : (∑ h : Fin 512, (zn x1 n h * two) * zn x2 m h) = (((∑ h : Fin 512, a h * b h) * 2 : ℝ) : EReal) := by
    rw [Finset.sum_mul, coe_sum]
    refine Finset.sum_congr rfl fun h _ => ?_
    rw [ha, hb, two_eq, ← EReal.coe_mul, ← EReal.coe_mul]
    exact congrArg _ (by ring)
  have hr : Ideal.div (∑ h : Fin 512, zn x1 n h * zn x2 m h) half
      = (((∑ h : Fin 512, a h * b h) * 2 : ℝ) : EReal) := by
    have hS : (∑ h : Fin 512, zn x1 n h * zn x2 m h) = ((∑ h : Fin 512, a h * b h : ℝ) : EReal) := by
      rw [coe_sum]
      refine Finset.sum_congr rfl fun h _ => ?_
      rw [ha, hb, EReal.coe_mul]
    rw [hS, half_eq, Ideal.div_coe (by norm_num), ← EReal.coe_mul]
    exact congrArg _ (by norm_num)
  rw [kerFx, refFx, hk, hr]

/-- The tiled row loss is the reference's row loss on real `x1`, `x2`. -/
theorem kerLoss_eq_refLoss (x1 x2 pse : Arr 8192 512) (gat : Arr 8192 8192) (h1 : Finite x1) (h2 : Finite x2)
    (n : Fin 8192) : kerLoss x1 x2 pse gat n = refLoss x1 x2 pse gat n := by
  have hN : accN (tileNum x1 x2 gat n) (nts pse x1 n) 8 = refNum x1 x2 pse gat n := by
    rw [accN_eight, refNum]
    refine congrArg (nts pse x1 n + ·) ?_
    refine (sum_tiles (fun m => kerFx x1 x2 n m * gat (ix2 n m))).trans ?_
    exact Finset.sum_congr rfl fun m _ => by rw [kerFx_eq_refFx x1 x2 h1 h2 n m]
  have hD : accN (tileDen x1 x2 n) (nts pse x1 n) 8 = refDen x1 x2 pse n := by
    rw [accN_eight, refDen]
    refine congrArg (nts pse x1 n + ·) ?_
    refine (sum_tiles (fun m => kerFx x1 x2 n m)).trans ?_
    exact Finset.sum_congr rfl fun m _ => kerFx_eq_refFx x1 x2 h1 h2 n m
  rw [kerLoss, refLoss, hN, hD, zero_eq, zero_sub]

end Cert.Spec

end
-- ==== Proof.lean ====
/-
  The claim: the tiled two-kernel contrastive loss and its plain reference.

  Both programs run to the end from any memory, fault nowhere and leave their argument arrays as launched: the kernel
  program as two pipeline regions followed by the host operations that take the mean, the reference as a straight line of
  host operations.  No operation of the kernel program is rewritten by its idealization.  At the ideal instance, from
  memories agreeing on the arguments and holding finite numbers, both end with the same result: the kernel program's is
  the mean of the tiled row losses, the reference's the mean of the plain row losses, and the two row losses are equal
  (the doubling of the first normalised factor moves out of the finite sums because the normalised entries are real, and
  adding eight column tiles left to right is adding all columns at once).
-/
import proofs.«158616_j61976378081883_2_alg».proof.Defs
import proofs.«158616_j61976378081883_2_alg».proof.Proof.Gen.Kernel
import proofs.«158616_j61976378081883_2_alg».proof.Proof.Gen.KernelIdeal
import proofs.«158616_j61976378081883_2_alg».proof.Proof.Gen.ReferenceIdeal
import proofs.«158616_j61976378081883_2_alg».proof.Proof.Gen.ReferenceIdeal.Run
import proofs.«158616_j61976378081883_2_alg».proof.Proof.Gen.ReferenceIdeal.Read
import proofs.«158616_j61976378081883_2_alg».proof.Proof.Gen.Pre_finite_inputs
import proofs.«158616_j61976378081883_2_alg».proof.Proof.K.FrameRun
import proofs.«158616_j61976378081883_2_alg».proof.Proof.KI.FrameRun
import proofs.«158616_j61976378081883_2_alg».proof.Proof.KI.ValFinal
import proofs.«158616_j61976378081883_2_alg».proof.Proof.RefValue
import proofs.«158616_j61976378081883_2_alg».proof.Proof.FiniteInputs
import proofs.«158616_j61976378081883_2_alg».proof.Proof.SpecLaws
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => fun _ => Cert.Spec.mean (Cert.Spec.refLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))), ?_, ?_⟩
  · refine (θ_run Cert.KernelIdeal.defs _ _).mono (fun r h c => ?_) (Cert.KernelIdeal.Fr.run_all (F := Ideal) m ρ)
    have hf := Cert.FiniteInputs.finite_of_fn _ _ _ _ (hpre c)
    refine ⟨?_,
      (h c _ (Cert.KernelIdeal.Fr.mem_uc Cert.KernelIdeal.main_arg0 (by decide))).trans (Cert.KernelIdeal.Fr.W3_main_arg0 m ρ c),
      (h c _ (Cert.KernelIdeal.Fr.mem_uc Cert.KernelIdeal.main_arg1 (by decide))).trans (Cert.KernelIdeal.Fr.W3_main_arg1 m ρ c),
      (h c _ (Cert.KernelIdeal.Fr.mem_uc Cert.KernelIdeal.main_arg2 (by decide))).trans (Cert.KernelIdeal.Fr.W3_main_arg2 m ρ c),
      (h c _ (Cert.KernelIdeal.Fr.mem_uc Cert.KernelIdeal.main_arg3 (by decide))).trans (Cert.KernelIdeal.Fr.W3_main_arg3 m ρ c)⟩
    refine (h c _ (Cert.KernelIdeal.Fr.mem_uc Cert.KernelIdeal.main_v3 (by decide))).trans ((Cert.KernelIdeal.Val.W3_v3 m ρ c).trans ?_)
    rw [show Cert.Spec.kerLoss _ _ _ _ = Cert.Spec.refLoss _ _ _ _ from
      funext fun n => Cert.Spec.kerLoss_eq_refLoss _ _ _ _ hf.1 hf.2 n]
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact Cert.ReferenceIdeal.RefValue.result_eq _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
